-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x8x32x32 : Shape := ⟨5, ![4, 64, 8, 32, 32]⟩
abbrev S32x64 : Shape := ⟨2, ![32, 64]⟩
abbrev S64x64 : Shape := ⟨2, ![64, 64]⟩
abbrev S64 : Shape := ⟨1, ![64]⟩
abbrev S_ : Shape := ⟨0, ![]⟩

class Facts : Prop where
  bcast_S_S4x64x8x32x32 : S_.BroadcastsInDim S4x64x8x32x32 (![] : Fin 0 → Fin S4x64x8x32x32.rank)
  reducesTo_S4x64x8x32x32_S_d0_1_2_3_4 : S4x64x8x32x32.ReducesTo [0, 1, 2, 3, 4] S_
  h_S_ : 0 < S_.numel
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x64x8x32x32 .f32) (main_arg1 : FVec F S32x64 .f32) (main_arg2 : FVec F S32x64 .f32) (main_arg3 : FVec F S64x64 .f32) (main_arg4 : FVec F S64 .f32) : IVec S_ 1 :=
  let main_v0 : FVec F S4x64x8x32x32 .f32 := Host.absf main_arg0
  let main_cst : FVec F S_ .f32 := constant S_ .f32 0x7F800000#32
  let main_v1 : FVec F S4x64x8x32x32 .f32 := broadcastInDim S4x64x8x32x32 ![] bcast_S_S4x64x8x32x32 main_cst
  let main_v2 : IVec S4x64x8x32x32 1 := cmpf .olt main_v0 main_v1
  let main_c : IVec S_ 1 := constantI S_ 1 1#1
  let main_v3 : IVec S_ 1 := (fun x v => Host.reduce IntOp.andi x v reducesTo_S4x64x8x32x32_S_d0_1_2_3_4 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S4x64x8x32x32 : Shape := ⟨5, ![4, 64, 8, 32, 32]⟩
abbrev S32x64 : Shape := ⟨2, ![32, 64]⟩
abbrev S64x64 : Shape := ⟨2, ![64, 64]⟩
abbrev S64 : Shape := ⟨1, ![64]⟩
abbrev S4x64x8192 : Shape := ⟨3, ![4, 64, 8192]⟩
abbrev S4x8192x64 : Shape := ⟨3, ![4, 8192, 64]⟩
abbrev S4x1x64 : Shape := ⟨3, ![4, 1, 64]⟩
abbrev S1x512x64 : Shape := ⟨3, ![1, 512, 64]⟩
abbrev S1x1x64 : Shape := ⟨3, ![1, 1, 64]⟩
abbrev S1x64 : Shape := ⟨2, ![1, 64]⟩
abbrev S512x64 : Shape := ⟨2, ![512, 64]⟩
abbrev S32x1x64 : Shape := ⟨3, ![32, 1, 64]⟩
abbrev S32x512x64 : Shape := ⟨3, ![32, 512, 64]⟩
abbrev S4x64 : Shape := ⟨2, ![4, 64]⟩
abbrev S_ : Shape := ⟨0, ![]⟩
abbrev S1x2048x64 : Shape := ⟨3, ![1, 2048, 64]⟩
abbrev S2048x64 : Shape := ⟨2, ![2048, 64]⟩

abbrev nBuf : Space → Nat
  | .hbm => 30
  | .vmem => 15
  | .smem => 0
  | _ => 0

abbrev bufTy : (tb : Table) → Fin (tcTables nBuf tb) → BufTy
  | .hbm, ⟨0, _⟩ => ⟨S4x64x8x32x32, .f32⟩
  | .hbm, ⟨1, _⟩ => ⟨S32x64, .f32⟩
  | .hbm, ⟨2, _⟩ => ⟨S32x64, .f32⟩
  | .hbm, ⟨3, _⟩ => ⟨S64x64, .f32⟩
  | .hbm, ⟨4, _⟩ => ⟨S64, .f32⟩
  | .hbm, ⟨5, _⟩ => ⟨S4x64x8192, .f32⟩
  | .hbm, ⟨6, _⟩ => ⟨S4x8192x64, .f32⟩
  | .hbm, ⟨7, _⟩ => ⟨S4x8192x64, .f32⟩
  | .hbm, ⟨8, _⟩ => ⟨S4x1x64, .f32⟩
  | .hbm, ⟨9, _⟩ => ⟨S4x64, .f32⟩
  | .hbm, ⟨10, _⟩ => ⟨S_, .f32⟩
  | .hbm, ⟨11, _⟩ => ⟨S4x64, .f32⟩
  | .hbm, ⟨12, _⟩ => ⟨S4x64, .f32⟩
  | .hbm, ⟨13, _⟩ => ⟨S64x64, .f32⟩
  | .hbm, ⟨14, _⟩ => ⟨S4x64, .f32⟩
  | .hbm, ⟨15, _⟩ => ⟨S1x64, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S4x64, .f32⟩
  | .hbm, ⟨20, _⟩ => ⟨S_, .f32⟩
  | .hbm, ⟨21, _⟩ => ⟨S4x64, .f32⟩
  | .hbm, ⟨22, _⟩ => ⟨S4x64, .f32⟩
  | .hbm, ⟨23, _⟩ => ⟨S_, .f32⟩
  | .hbm, ⟨24, _⟩ => ⟨S4x64, .f32⟩
  | .hbm, ⟨25, _⟩ => ⟨S4x64, .f32⟩
  | .hbm, ⟨26, _⟩ => ⟨S4x1x64, .f32⟩
  | .hbm, ⟨27, _⟩ => ⟨S4x8192x64, .f32⟩
  | .hbm, ⟨28, _⟩ => ⟨S4x64x8192, .f32⟩
  | .hbm, ⟨29, _⟩ => ⟨S4x64x8x32x32, .f32⟩
  | .local _ .vmem, ⟨0, _⟩ => ⟨S1x512x64, .f32⟩
  | .local _ .vmem, ⟨1, _⟩ => ⟨S1x512x64, .f32⟩
  | .local _ .vmem, ⟨2, _⟩ => ⟨S32x64, .f32⟩
  | .local _ .vmem, ⟨3, _⟩ => ⟨S32x64, .f32⟩
  | .local _ .vmem, ⟨4, _⟩ => ⟨S1x512x64, .f32⟩
  | .local _ .vmem, ⟨5, _⟩ => ⟨S1x512x64, .f32⟩
  | .local _ .vmem, ⟨6, _⟩ => ⟨S1x1x64, .f32⟩
  | .local _ .vmem, ⟨7, _⟩ => ⟨S1x1x64, .f32⟩
  | .local _ .vmem, ⟨8, _⟩ => ⟨S1x64, .f32⟩
  | .local _ .vmem, ⟨9, _⟩ => ⟨S1x2048x64, .f32⟩
  | .local _ .vmem, ⟨10, _⟩ => ⟨S1x2048x64, .f32⟩
  | .local _ .vmem, ⟨11, _⟩ => ⟨S1x1x64, .f32⟩
  | .local _ .vmem, ⟨12, _⟩ => ⟨S1x1x64, .f32⟩
  | .local _ .vmem, ⟨13, _⟩ => ⟨S1x2048x64, .f32⟩
  | .local _ .vmem, ⟨14, _⟩ => ⟨S1x2048x64, .f32⟩
  | _, _ => ⟨S4x64x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_18 : BitVec 32 := 0#32
  let v41 : BitVec 1 := Scalar.cmpi .ne v40 c0_i32_18
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x64x8x32x32_S4x64x8192 : S4x64x8x32x32.ShapeCasts S4x64x8192
  transposes_S4x64x8192_S4x8192x64_0_2_1 : S4x64x8192.Transposes [0, 2, 1] S4x8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S32x64_S32x64_0_0 : ∀ a, (![0, 0] : Fin 2 → Nat) a + S32x64.size a ≤ S32x64.size a
  h_S32x64 : 0 < S32x64.numel
  shapeCasts_S512x64_S1x512x64 : S512x64.ShapeCasts S1x512x64
  shapeCasts_S32x64_S32x1x64 : S32x64.ShapeCasts S32x1x64
  broadcasts_S1x512x64_S32x512x64 : S1x512x64.Broadcasts S32x512x64
  broadcasts_S32x1x64_S32x512x64 : S32x1x64.Broadcasts S32x512x64
  reduces_S32x512x64_S512x64 : S32x512x64.Reduces [0] S512x64
  reduces_S512x64_S64 : S512x64.Reduces [0] S64
  shapeCasts_S64_S1x64 : S64.ShapeCasts S1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  shapeCasts_S4x1x64_S4x64 : S4x1x64.ShapeCasts S4x64
  bcast_S_S4x64 : S_.BroadcastsInDim S4x64 (![] : Fin 0 → Fin S4x64.rank)
  transposes_S64x64_S64x64_1_0 : S64x64.Transposes [1, 0] S64x64
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  shapeCasts_S4x64_S4x1x64 : S4x64.ShapeCasts S4x1x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  broadcasts_S1x64_S2048x64 : S1x64.Broadcasts S2048x64
  shapeCasts_S2048x64_S1x2048x64 : S2048x64.ShapeCasts S1x2048x64
  transposes_S4x8192x64_S4x64x8192_0_2_1 : S4x8192x64.Transposes [0, 2, 1] S4x64x8192
  shapeCasts_S4x64x8192_S4x64x8x32x32 : S4x64x8192.ShapeCasts S4x64x8x32x32
  dot_S4x64_S64x64_S4x64_1_0_0_1_n_n_wf : DotDims.WF S4x64 S64x64 S4x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x8192x64.size a
  hwx0_0 : ∀ i : grid0.Coords, EltTy.bits .f32 = 32 ∨ (Rect.block (s := S4x8192x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x8192x64.size a
  hwx0_3 : ∀ i : grid0.Coords, EltTy.bits .f32 = 32 ∨ (Rect.block (s := S4x8192x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S4x1x64.size a
  hwx0_4 : ∀ i : grid0.Coords, EltTy.bits .f32 = 32 ∨ (Rect.block (s := S4x1x64) S1x1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S4x8192x64.size a
  hwx1_0 : ∀ i : grid1.Coords, EltTy.bits .f32 = 32 ∨ (Rect.block (s := S4x8192x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S4x1x64.size a
  hwx1_1 : ∀ i : grid1.Coords, EltTy.bits .f32 = 32 ∨ (Rect.block (s := S4x1x64) S1x1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S4x8192x64.size a
  hwx1_2 : ∀ i : grid1.Coords, EltTy.bits .f32 = 32 ∨ (Rect.block (s := S4x8192x64) S1x2048x64.size (cc1_transform_2 i) (hinb1_2 i)).WholeWords (EltTy.packing .f32)

variable [Facts₀]

def dot_S4x64_S64x64_S4x64_1_0_0_1_n_n : DotDims S4x64 S64x64 S4x64 where
  lhsContracting := [1]
  rhsContracting := [0]
  lhsNonContracting := [0]
  rhsNonContracting := [1]
  lhsBatch := []
  rhsBatch := []
  wf := dot_S4x64_S64x64_S4x64_1_0_0_1_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2_0) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x8x32x32 : Shape := ⟨5, ![4, 64, 8, 32, 32]⟩
abbrev S32x64 : Shape := ⟨2, ![32, 64]⟩
abbrev S64x64 : Shape := ⟨2, ![64, 64]⟩
abbrev S64 : Shape := ⟨1, ![64]⟩
abbrev S4x64x8192 : Shape := ⟨3, ![4, 64, 8192]⟩
abbrev S4x8192x64 : Shape := ⟨3, ![4, 8192, 64]⟩
abbrev S4x8192x1x64 : Shape := ⟨4, ![4, 8192, 1, 64]⟩
abbrev S1x1x32x64 : Shape := ⟨4, ![1, 1, 32, 64]⟩
abbrev S4x8192x32x64 : Shape := ⟨4, ![4, 8192, 32, 64]⟩
abbrev S_ : Shape := ⟨0, ![]⟩
abbrev S4x32x64 : Shape := ⟨3, ![4, 32, 64]⟩
abbrev S4x64 : Shape := ⟨2, ![4, 64]⟩
abbrev S1x64 : Shape := ⟨2, ![1, 64]⟩
abbrev S4x64x1x1x1 : Shape := ⟨5, ![4, 64, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S4x64x8x32x32, .f32⟩
  | .hbm, ⟨1, _⟩ => ⟨S32x64, .f32⟩
  | .hbm, ⟨2, _⟩ => ⟨S32x64, .f32⟩
  | .hbm, ⟨3, _⟩ => ⟨S64x64, .f32⟩
  | .hbm, ⟨4, _⟩ => ⟨S64, .f32⟩
  | .hbm, ⟨5, _⟩ => ⟨S4x64x8192, .f32⟩
  | .hbm, ⟨6, _⟩ => ⟨S4x8192x64, .f32⟩
  | .hbm, ⟨7, _⟩ => ⟨S4x8192x1x64, .f32⟩
  | .hbm, ⟨8, _⟩ => ⟨S1x1x32x64, .f32⟩
  | .hbm, ⟨9, _⟩ => ⟨S4x8192x32x64, .f32⟩
  | .hbm, ⟨10, _⟩ => ⟨S4x8192x32x64, .f32⟩
  | .hbm, ⟨11, _⟩ => ⟨S4x8192x32x64, .f32⟩
  | .hbm, ⟨12, _⟩ => ⟨S1x1x32x64, .f32⟩
  | .hbm, ⟨13, _⟩ => ⟨S4x8192x32x64, .f32⟩
  | .hbm, ⟨14, _⟩ => ⟨S4x8192x32x64, .f32⟩
  | .hbm, ⟨15, _⟩ => ⟨S4x8192x32x64, .f32⟩
  | .hbm, ⟨16, _⟩ => ⟨S_, .f32⟩
  | .hbm, ⟨17, _⟩ => ⟨S4x8192x64, .f32⟩
  | .hbm, ⟨18, _⟩ => ⟨S_, .f32⟩
  | .hbm, ⟨19, _⟩ => ⟨S4x8192x64, .f32⟩
  | .hbm, ⟨20, _⟩ => ⟨S4x8192x64, .f32⟩
  | .hbm, ⟨21, _⟩ => ⟨S4x8192x1x64, .f32⟩
  | .hbm, ⟨22, _⟩ => ⟨S4x8192x32x64, .f32⟩
  | .hbm, ⟨23, _⟩ => ⟨S4x8192x32x64, .f32⟩
  | .hbm, ⟨24, _⟩ => ⟨S4x8192x32x64, .f32⟩
  | .hbm, ⟨25, _⟩ => ⟨S_, .f32⟩
  | .hbm, ⟨26, _⟩ => ⟨S4x8192x64, .f32⟩
  | .hbm, ⟨27, _⟩ => ⟨S4x8192x1x64, .f32⟩
  | .hbm, ⟨28, _⟩ => ⟨S4x8192x32x64, .f32⟩
  | .hbm, ⟨29, _⟩ => ⟨S4x8192x32x64, .f32⟩
  | .hbm, ⟨30, _⟩ => ⟨S4x8192x32x64, .f32⟩
  | .hbm, ⟨31, _⟩ => ⟨S_, .f32⟩
  | .hbm, ⟨32, _⟩ => ⟨S4x32x64, .f32⟩
  | .hbm, ⟨33, _⟩ => ⟨S_, .f32⟩
  | .hbm, ⟨34, _⟩ => ⟨S4x64, .f32⟩
  | .hbm, ⟨35, _⟩ => ⟨S_, .f32⟩
  | .hbm, ⟨36, _⟩ => ⟨S4x64, .f32⟩
  | .hbm, ⟨37, _⟩ => ⟨S4x64, .f32⟩
  | .hbm, ⟨38, _⟩ => ⟨S64x64, .f32⟩
  | .hbm, ⟨39, _⟩ => ⟨S4x64, .f32⟩
  | .hbm, ⟨40, _⟩ => ⟨S1x64, .f32⟩
  | .hbm, ⟨41, _⟩ => ⟨S4x64, .f32⟩
  | .hbm, ⟨42, _⟩ => ⟨S4x64, .f32⟩
  | .hbm, ⟨43, _⟩ => ⟨S4x64, .f32⟩
  | .hbm, ⟨44, _⟩ => ⟨S4x64, .f32⟩
  | .hbm, ⟨45, _⟩ => ⟨S_, .f32⟩
  | .hbm, ⟨46, _⟩ => ⟨S4x64, .f32⟩
  | .hbm, ⟨47, _⟩ => ⟨S4x64, .f32⟩
  | .hbm, ⟨48, _⟩ => ⟨S_, .f32⟩
  | .hbm, ⟨49, _⟩ => ⟨S4x64, .f32⟩
  | .hbm, ⟨50, _⟩ => ⟨S4x64, .f32⟩
  | .hbm, ⟨51, _⟩ => ⟨S_, .f32⟩
  | .hbm, ⟨52, _⟩ => ⟨S4x8192x64, .f32⟩
  | .hbm, ⟨53, _⟩ => ⟨S4x64x8192, .f32⟩
  | .hbm, ⟨54, _⟩ => ⟨S4x64x8x32x32, .f32⟩
  | .hbm, ⟨55, _⟩ => ⟨S4x64x1x1x1, .f32⟩
  | .hbm, ⟨56, _⟩ => ⟨S4x64x8x32x32, .f32⟩
  | .hbm, ⟨57, _⟩ => ⟨S4x64x8x32x32, .f32⟩
  | .hbm, ⟨58, _⟩ => ⟨S4x64x8x32x32, .f32⟩
  | .hbm, ⟨59, _⟩ => ⟨S_, .f32⟩
  | .hbm, ⟨60, _⟩ => ⟨S4x64x8x32x32, .f32⟩
  | .hbm, ⟨61, _⟩ => ⟨S4x64x8x32x32, .f32⟩
  | _, _ => ⟨S4x64x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_cst : Ref sig .tc := ⟨.hbm, 59, rfl⟩
abbrev main_call0_v0 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  shapeCasts_S4x64x8x32x32_S4x64x8192 : S4x64x8x32x32.ShapeCasts S4x64x8192
  transposes_S4x64x8192_S4x8192x64_0_2_1 : S4x64x8192.Transposes [0, 2, 1] S4x8192x64
  bcast_S4x8192x64_S4x8192x1x64_0_1_3 : S4x8192x64.BroadcastsInDim S4x8192x1x64 (![0, 1, 3] : Fin 3 → Fin S4x8192x1x64.rank)
  bcast_S32x64_S1x1x32x64_2_3 : S32x64.BroadcastsInDim S1x1x32x64 (![2, 3] : Fin 2 → Fin S1x1x32x64.rank)
  bcast_S4x8192x1x64_S4x8192x32x64_0_1_2_3 : S4x8192x1x64.BroadcastsInDim S4x8192x32x64 (![0, 1, 2, 3] : Fin 4 → Fin S4x8192x32x64.rank)
  bcast_S1x1x32x64_S4x8192x32x64_0_1_2_3 : S1x1x32x64.BroadcastsInDim S4x8192x32x64 (![0, 1, 2, 3] : Fin 4 → Fin S4x8192x32x64.rank)
  reducesTo_S4x8192x32x64_S4x8192x64_d2 : S4x8192x32x64.ReducesTo [2] S4x8192x64
  h_S_ : 0 < S_.numel
  bcast_S_S4x8192x64 : S_.BroadcastsInDim S4x8192x64 (![] : Fin 0 → Fin S4x8192x64.rank)
  reducesTo_S4x8192x32x64_S4x32x64_d1 : S4x8192x32x64.ReducesTo [1] S4x32x64
  reducesTo_S4x32x64_S4x64_d1 : S4x32x64.ReducesTo [1] S4x64
  bcast_S_S4x64 : S_.BroadcastsInDim S4x64 (![] : Fin 0 → Fin S4x64.rank)
  transposes_S64x64_S64x64_1_0 : S64x64.Transposes [1, 0] S64x64
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  transposes_S4x8192x64_S4x64x8192_0_2_1 : S4x8192x64.Transposes [0, 2, 1] S4x64x8192
  shapeCasts_S4x64x8192_S4x64x8x32x32 : S4x64x8192.ShapeCasts S4x64x8x32x32
  bcast_S4x64_S4x64x1x1x1_0_1 : S4x64.BroadcastsInDim S4x64x1x1x1 (![0, 1] : Fin 2 → Fin S4x64x1x1x1.rank)
  bcast_S4x64x1x1x1_S4x64x8x32x32_0_1_2_3_4 : S4x64x1x1x1.BroadcastsInDim S4x64x8x32x32 (![0, 1, 2, 3, 4] : Fin 5 → Fin S4x64x8x32x32.rank)
  bcast_S_S4x64x8x32x32 : S_.BroadcastsInDim S4x64x8x32x32 (![] : Fin 0 → Fin S4x64x8x32x32.rank)
  dot_S4x64_S64x64_S4x64_1_0_0_1_n_n_wf : DotDims.WF S4x64 S64x64 S4x64 [1] [0] [0] [1] [] []

variable [Facts₀]

def dot_S4x64_S64x64_S4x64_1_0_0_1_n_n : DotDims S4x64 S64x64 S4x64 where
  lhsContracting := [1]
  rhsContracting := [0]
  lhsNonContracting := [0]
  rhsNonContracting := [1]
  lhsBatch := []
  rhsBatch := []
  wf := dot_S4x64_S64x64_S4x64_1_0_0_1_n_n_wf

class Facts : Prop extends Facts₀ where

variable [Facts]
-- ==== Proof.K.Reg0Defs.lean ====
/-
  The first launch (the soft-assignment kernel over a 4 × 16 grid of voxel tiles), stated at the buffer contents `V`
  the launch is entered from: a window's block at a grid point; the two conditions of the body in closed form (a batch's
  first tile resets the per-channel accumulator, its last tile emits it); what the accumulator holds after each
  point, by recursion on the point; the invariant that carries it between points; and the proof data of the launch —
  each input buffer at its block, the tile output at the tile's aggregate, the per-batch output at the accumulator.
-/
import proofs.«120395_j30193620091340_2_alg».proof.Proof.Gen.Kernel.Launch
import proofs.«120395_j30193620091340_2_alg».proof.Proof.Gen.Kernel.Skeleton
import proofs.«120395_j30193620091340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the batch's first tile": the accumulator is reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)
/-- "This is the batch's last tile": the accumulator is emitted. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-- The scratch accumulator, a whole scoped buffer of the kernel's own. -/
abbrev scM : Memref sig .tc .vmem S1x64 .f32 := Memref.whole cc0_scratch0

/-- Each window's current staging memref at point `t`, as the pipeline passes it, and its wholeness. -/
abbrev ms0 (t : Fin cfg0.N) : Memref sig .tc .vmem S1x512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64 .f32 := win0_4.stage (cfg0.slots t 4)
abbrev hs4 (t : Fin cfg0.N) : (ms4 t).IsWhole := hstage0_4 ((cfg0.slots t 4).cast nbuf0_4)

/-! ## The accumulator after each point -/

/-- One point's update of the accumulator `a`: the tile's aggregate summed over its 512 voxels, added to `a`. -/
def step (c : Dev nD) (t : Fin cfg0.N) (a : Vec F S1x64 .f32) : Vec F S1x64 .f32 :=
  k0_pay1 (k0_pay6 (iblk V c 0 t) (iblk V c 1 t) (iblk V c 2 t) a)

/-- What the scratch accumulator holds after the body at position `n`: at a batch's first tile the update of the zero
    row, otherwise the update of what the point before left. -/
def accAt (c : Dev nD) : (n : ℕ) → n < cfg0.N → Vec F S1x64 .f32
  | 0, h => step V c ⟨0, h⟩ (k0_pay3 (F := F))
  | n + 1, h => if (n + 1) % 16 = 0 then step V c ⟨n + 1, h⟩ (k0_pay3 (F := F))
      else step V c ⟨n + 1, h⟩ (accAt c n (Nat.lt_of_succ_lt h))

theorem accAt_first (c : Dev nD) (t : Fin cfg0.N) (h0 : t.val % 16 = 0) :
    accAt V c t.val t.isLt = step V c t (k0_pay3 (F := F)) := by
  obtain ⟨n, hn⟩ := t
  cases n with
  | zero => rfl
  | succ n => exact if_pos h0

theorem accAt_later (c : Dev nD) (t : Fin cfg0.N) (h0 : ¬t.val % 16 = 0) :
    accAt V c t.val t.isLt = step V c t (accAt V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The second launch's staging buffers, which this launch does not touch: each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before the first point: the scoped buffers outside the launch's staging and the generator register, at anything.
    Before a later point: the accumulator at what the point before left, the rest as before. -/
def PhiS (c : Dev nD) : (n : ℕ) → n ≤ cfg0.N → sProp 𝕄
  | 0, _ => Pipeline.ΦA spec0 c
  | n + 1, hn => iprop(iprop(owns (c : Thread nD τ) scM fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ otherScoped c) ∗ (∃ r, prngReg c r)) := by
  cases n with
  | zero => exact absurd rfl hz
  | succ n => rfl

/-! ## The launch's proof data -/

/-- The arrays as the launch finds them; after the body at point `t` each input's buffer at its block, the tile output at
    the tile's aggregate, the per-batch output at the accumulator (consulted at a batch's last tile only: elsewhere the
    window is idle and its buffer handed back untouched); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay5 (iblk V c 0 t) (iblk V c 1 t) (iblk V c 2 t)
    | ⟨4, _⟩ => k0_pay2 (accAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay5 (iblk V c 0 t) (iblk V c 1 t) (iblk V c 2 t) := by dsimp only [dat]
theorem after_4 (c : Dev nD) (t : Fin cfg0.N) : (dat V c).after 4 t = k0_pay2 (accAt V c t.val t.isLt) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Cert.Kernel.R0

end
-- ==== Proof.K.Reg0RunA.lean ====
/-
  The soft-assignment kernel's body at a batch's first tile that is not its last: the accumulator is reset to the zero
  row, the tile's aggregate is stored whole into the tile output, its sum over the 512 voxels is added to the (zero)
  accumulator, and the per-batch output is left alone.
-/
import proofs.«120395_j30193620091340_2_alg».proof.Proof.K.Reg0Defs
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Body

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- On whole memrefs — the three inputs at `x0`, `x1`, `x2`, the tile output and the accumulator at anything, the per-batch
    output at `xi` — the body at a batch's first tile that is not its last runs to a continuation that is handed the inputs
    as they were, the tile output at the tile's aggregate, the per-batch output untouched at `xi`, and the accumulator
    at the tile's column sums added to the zero row. Each stored buffer is read back through its one covering store;
    the zero row stored first is what the later load of the accumulator reads. -/
theorem runA (c : Dev nD) (i : grid0.Coords)
    (arg2 : Memref sig .tc .vmem S1x512x64 .f32) (harg2 : arg2.IsWhole)
    (arg3 : Memref sig .tc .vmem S32x64 .f32) (harg3 : arg3.IsWhole)
    (arg4 : Memref sig .tc .vmem S32x64 .f32) (harg4 : arg4.IsWhole)
    (arg5 : Memref sig .tc .vmem S1x512x64 .f32) (harg5 : arg5.IsWhole)
    (arg6 : Memref sig .tc .vmem S1x1x64 .f32) (harg6 : arg6.IsWhole)
    (arg7 : Memref sig .tc .vmem S1x64 .f32) (harg7 : arg7.IsWhole)
    (hc0 : condFirst i) (hc1 : ¬condLast i)
    (x0 : Vec F S1x512x64 .f32) (x1 x2 : Vec F S32x64 .f32) (xi : Vec F S1x1x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 x0 x1 x2) ∗ owns (c : Thread nD τ) arg6 fullShare xi
            ∗ owns (c : Thread nD τ) arg7 fullShare (k0_pay1 (k0_pay6 x0 x1 x2 (k0_pay3 (F := F))))) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%f6, %hf6, H6⟩, ⟨%d7, %f7, -, H7⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero (S := S1x512x64) hz3 inb_S1x512x64_S1x512x64_0_0_0 y⟩)]
    rw [View.canon_unit_zero hz3]
    simp only [View.readAt_eq_ld, harg2.read_unread, harg3.read_unread, harg4.read_unread,
      View.ld_unit_zero (S := S1x512x64) hz3, View.ld_unit_zero (S := S32x64) hz2]
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero (S := S1x64) hz2 inb_S1x64_S1x64_0_0 y⟩)]
  rw [View.canon_cons_unit_zero (S := S1x64) hz2]
  sl_unfold_words
  rw [View.readCov_unit_zero (S := S1x64) _ hz2]
  simp only [View.readAt_eq_ld, harg2.read_unread, harg3.read_unread, harg4.read_unread,
    View.ld_unit_zero (S := S1x512x64) hz3, View.ld_unit_zero (S := S32x64) hz2]

end Body

end Cert.Kernel.R0

end
-- ==== Proof.K.Reg0RunB.lean ====
/-
  The soft-assignment kernel's body at a tile that is neither a batch's first nor its last: the tile's aggregate is
  stored whole into the tile output, its sum over the 512 voxels is added to the accumulator the tile before left, and
  the per-batch output is left alone.
-/
import proofs.«120395_j30193620091340_2_alg».proof.Proof.K.Reg0Defs
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Body

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- On whole memrefs — the three inputs at `x0`, `x1`, `x2`, the tile output at anything, the per-batch output at `xi`,
    the accumulator at `xs` — the body at a tile that is neither first nor last of its batch runs to a continuation that
    is handed the inputs as they were, the tile output at the tile's aggregate, the per-batch output untouched at `xi`,
    and the accumulator at the tile's column sums added to `xs`. -/
theorem runB (c : Dev nD) (i : grid0.Coords)
    (arg2 : Memref sig .tc .vmem S1x512x64 .f32) (harg2 : arg2.IsWhole)
    (arg3 : Memref sig .tc .vmem S32x64 .f32) (harg3 : arg3.IsWhole)
    (arg4 : Memref sig .tc .vmem S32x64 .f32) (harg4 : arg4.IsWhole)
    (arg5 : Memref sig .tc .vmem S1x512x64 .f32) (harg5 : arg5.IsWhole)
    (arg6 : Memref sig .tc .vmem S1x1x64 .f32) (harg6 : arg6.IsWhole)
    (arg7 : Memref sig .tc .vmem S1x64 .f32) (harg7 : arg7.IsWhole)
    (hc0 : ¬condFirst i) (hc1 : ¬condLast i)
    (x0 : Vec F S1x512x64 .f32) (x1 x2 : Vec F S32x64 .f32) (xi : Vec F S1x1x64 .f32) (xs : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 x0 x1 x2) ∗ owns (c : Thread nD τ) arg6 fullShare xi
            ∗ owns (c : Thread nD τ) arg7 fullShare (k0_pay1 (k0_pay6 x0 x1 x2 xs))) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf2; obtain rfl := harg3.eq_unread hf3; obtain rfl := harg4.eq_unread hf4; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero (S := S1x512x64) hz3 inb_S1x512x64_S1x512x64_0_0_0 y⟩)]
    rw [View.canon_unit_zero hz3]
    simp only [View.readAt_eq_ld, harg2.read_unread, harg3.read_unread, harg4.read_unread,
      View.ld_unit_zero (S := S1x512x64) hz3, View.ld_unit_zero (S := S32x64) hz2]
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero (S := S1x64) hz2 inb_S1x64_S1x64_0_0 y⟩)]
  rw [View.canon_cons_unit_zero (S := S1x64) hz2]
  simp only [View.readAt_eq_ld, harg2.read_unread, harg3.read_unread, harg4.read_unread, harg7.read_unread,
    View.ld_unit_zero (S := S1x512x64) hz3, View.ld_unit_zero (S := S32x64) hz2, View.ld_unit_zero (S := S1x64) hz2]

end Body

end Cert.Kernel.R0

end
-- ==== Proof.K.Reg0RunC.lean ====
/-
  The soft-assignment kernel's body at a batch's last tile (which is not its first): the tile's aggregate is stored whole
  into the tile output, its sum over the 512 voxels is added to the accumulator the tile before left, and the
  accumulator just stored is read back and emitted, reshaped, into the per-batch output.
-/
import proofs.«120395_j30193620091340_2_alg».proof.Proof.K.Reg0Defs
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Body

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- On whole memrefs — the three inputs at `x0`, `x1`, `x2`, the tile output and the per-batch output at anything, the
    accumulator at `xs` — the body at a batch's last tile runs to a continuation that is handed the inputs as they were,
    the tile output at the tile's aggregate, the accumulator at the tile's column sums added to `xs`, and the per-batch
    output at that same row reshaped: the load that feeds it reads the accumulator's one covering store back. -/
theorem runC (c : Dev nD) (i : grid0.Coords)
    (arg2 : Memref sig .tc .vmem S1x512x64 .f32) (harg2 : arg2.IsWhole)
    (arg3 : Memref sig .tc .vmem S32x64 .f32) (harg3 : arg3.IsWhole)
    (arg4 : Memref sig .tc .vmem S32x64 .f32) (harg4 : arg4.IsWhole)
    (arg5 : Memref sig .tc .vmem S1x512x64 .f32) (harg5 : arg5.IsWhole)
    (arg6 : Memref sig .tc .vmem S1x1x64 .f32) (harg6 : arg6.IsWhole)
    (arg7 : Memref sig .tc .vmem S1x64 .f32) (harg7 : arg7.IsWhole)
    (hc0 : ¬condFirst i) (hc1 : condLast i)
    (x0 : Vec F S1x512x64 .f32) (x1 x2 : Vec F S32x64 .f32) (xs : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 x0 x1 x2) ∗ owns (c : Thread nD τ) arg6 fullShare (k0_pay2 (k0_pay1 (k0_pay6 x0 x1 x2 xs)))
            ∗ owns (c : Thread nD τ) arg7 fullShare (k0_pay1 (k0_pay6 x0 x1 x2 xs))) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero (S := S1x512x64) hz3 inb_S1x512x64_S1x512x64_0_0_0 y⟩)]
    rw [View.canon_unit_zero hz3]
    simp only [View.readAt_eq_ld, harg2.read_unread, harg3.read_unread, harg4.read_unread,
      View.ld_unit_zero (S := S1x512x64) hz3, View.ld_unit_zero (S := S32x64) hz2]
  isplitl [H6]
  · iexists _; isplitr
    swap; · iexact H6
    ipureintro
    rw [View.read_writes_eq_canon _ _ _ (fun y => ⟨_, List.mem_cons_self, View.mem_set_unit_zero (S := S1x1x64) hz3 inb_S1x1x64_S1x1x64_0_0_0 y⟩)]
    rw [View.canon_cons_unit_zero (S := S1x1x64) hz3]
    sl_unfold_words
    rw [View.readCov_unit_zero (S := S1x64) _ hz2]
    simp only [View.readAt_eq_ld, harg2.read_unread, harg3.read_unread, harg4.read_unread, harg7.read_unread,
    View.ld_unit_zero (S := S1x512x64) hz3, View.ld_unit_zero (S := S32x64) hz2, View.ld_unit_zero (S := S1x64) hz2]
  iexists _; isplitr
  swap; · iexact H7
  ipureintro
  sl_unfold_words
  rw [View.read_writes_eq_canon _ _ _ (fun y => ⟨_, List.mem_cons_self, View.mem_set_unit_zero (S := S1x64) hz2 inb_S1x64_S1x64_0_0 y⟩)]
  rw [View.canon_cons_unit_zero (S := S1x64) hz2]
  simp only [View.readAt_eq_ld, harg2.read_unread, harg3.read_unread, harg4.read_unread, harg7.read_unread,
    View.ld_unit_zero (S := S1x512x64) hz3, View.ld_unit_zero (S := S32x64) hz2, View.ld_unit_zero (S := S1x64) hz2]

end Body

end Cert.Kernel.R0

end
-- ==== Proof.K.Reg0Body.lean ====
/-
  The first launch's body obligation: at every grid point the kernel body, called on the windows' current staging
  memrefs and the scratch accumulator, leaves each input buffer at its block, the tile output at the tile's aggregate,
  the per-batch output at the emitted accumulator (at a batch's last tile; elsewhere untouched), and carries the
  accumulator's contents from point to point through the launch's invariant. The three cases of the body (a batch's
  first tile, a middle tile, its last tile) are the three runs imported here; which case a point is in is read off the
  closed forms of the body's two conditions.
-/
import proofs.«120395_j30193620091340_2_alg».proof.Proof.K.Reg0RunA
import proofs.«120395_j30193620091340_2_alg».proof.Proof.K.Reg0RunB
import proofs.«120395_j30193620091340_2_alg».proof.Proof.K.Reg0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body

/-- What the launch hands the body before the first point, with the scratch accumulator as a memref owned at some
    contents and the six staging buffers of the second launch riding along. -/
theorem PhiA_eq (c : Dev nD) :
    (Pipeline.ΦA spec0 c : sProp 𝕄)
      = iprop(iprop((∃ d, owns (c : Thread nD τ) scM fullShare d) ∗ otherScoped (F := F) c) ∗ (∃ r, prngReg c r)) := by
  unfold Pipeline.ΦA; rw [scopedRest0_eq]; unfold otherScoped; simp only [scM, owns_whole]; try rfl

/-- The three inputs and the tile output are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The per-batch output is live at a batch's last tile and idle elsewhere, where it is not written back either. -/
theorem live4 : ∀ t : Fin cfg0.N, t.val % 16 = 15 → cfg0.idle 4 (grid0.coords t) = false := by decide +kernel
theorem idle4 : ∀ t : Fin cfg0.N, ¬t.val % 16 = 15 → cfg0.idle 4 (grid0.coords t) = true := by decide +kernel
theorem noFlush4 (t : Fin cfg0.N) (h : ¬t.val % 16 = 15) : (cfg0.win 4).flush t = false :=
  Bool.eq_false_iff.mpr fun hf => h ((flush0_4 t).mp hf)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the point's position in its batch says which of the
    three runs applies; the invariant hands the run the accumulator (at anything before the very first point, at what
    the point before left otherwise) and takes it back at this point's contents, the rest of the invariant and the
    core's debts passing through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  by_cases h0 : t.val % 16 = 0
  · by_cases h1 : t.val % 16 = 15
    · exfalso; omega
    · rw [Dat.leavesExact_idle (dat V c) 4 t (idle4 t h1) (noFlush4 t h1)]
      rw [accAt_first V c t h0]; unfold step
      by_cases hz : t.val = 0
      · rw [PhiS_castSucc V c t, PhiS_zero V c _ _ hz, PhiA_eq]
        iintro ⟨⟨⟨HS, Hrest⟩, Hg⟩, Ho, ⟨%d0, H0⟩, ⟨%d1, H1⟩, ⟨%d2, H2⟩, ⟨%d3, H3⟩, ⟨%d4, H4⟩⟩
        iapply (runA c (grid0.coords t) _ _ _ _ _ _ _ _ _ _ _ _ ((hcondFirst t).mpr h0) (fun h => h1 ((hcondLast t).mp h)) (iblk V c 0 t) (iblk V c 1 t) (iblk V c 2 t) ((dat V c).before 4 t d4) Set.univ _)
        isplitl [H0]; · iexact H0
        isplitl [H1]; · iexact H1
        isplitl [H2]; · iexact H2
        isplitl [H3]; · iexists _; iexact H3
        isplitl [H4]; · iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (runA c (grid0.coords t) _ _ _ _ _ _ _ _ _ _ _ _ ((hcondFirst t).mpr h0) (fun h => h1 ((hcondLast t).mp h)) (iblk V c 0 t) (iblk V c 1 t) (iblk V c 2 t) ((dat V c).before 4 t d4) Set.univ _)
        isplitl [H0]; · iexact H0
        isplitl [H1]; · iexact H1
        isplitl [H2]; · iexact H2
        isplitl [H3]; · iexists _; iexact H3
        isplitl [H4]; · iexact H4
        isplitl [HS]; · iexists _; iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 16 = 15
    · rw [show (dat V c).leavesExact 4 t = owns (c : Thread nD τ) (ms4 t) fullShare ((dat V c).after 4 t) from by
    unfold Dat.leavesExact; rw [live4 t h1], after_4]
      rw [accAt_later V c t h0]; unfold step
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (runC c (grid0.coords t) _ _ _ _ _ _ _ _ _ _ _ _ (fun h => h0 ((hcondFirst t).mp h)) ((hcondLast t).mpr h1) (iblk V c 0 t) (iblk V c 1 t) (iblk V c 2 t) _ Set.univ _)
        isplitl [H0]; · iexact H0
        isplitl [H1]; · iexact H1
        isplitl [H2]; · iexact H2
        isplitl [H3]; · iexists _; iexact H3
        isplitl [H4]; · iexists _; iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexact H4
    · rw [Dat.leavesExact_idle (dat V c) 4 t (idle4 t h1) (noFlush4 t h1)]
      rw [accAt_later V c t h0]; unfold step
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (runB c (grid0.coords t) _ _ _ _ _ _ _ _ _ _ _ _ (fun h => h0 ((hcondFirst t).mp h)) (fun h => h1 ((hcondLast t).mp h)) (iblk V c 0 t) (iblk V c 1 t) (iblk V c 2 t) ((dat V c).before 4 t d4) _ Set.univ _)
        isplitl [H0]; · iexact H0
        isplitl [H1]; · iexact H1
        isplitl [H2]; · iexact H2
        isplitl [H3]; · iexists _; iexact H3
        isplitl [H4]; · iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4

/-- After any point but the first the invariant gives back what the launch handed over: the accumulator's named
    contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

end Body

/-- The library's body obligation, at every point. -/
theorem body_obligation (c : Dev nD) : BodyObligation (dat (F := F) V c) (defs₀ (F := F)) Variants.none () Set.univ := fun t => by
  rw [bigSep_W0, bigSep_W0]
  exact Body.sound_body V c t

/-- What the launch hands over is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives it back. -/
theorem hout (c : Dev nD) : (dat V c).Φ (Fin.last cfg0.N) ⊢ Pipeline.ΦA spec0 c :=
  Body.Phi_out V c _ (by rw [Fin.val_last]; have : cfg0.N = 64 := N_0; omega)

end Cert.Kernel.R0

end
-- ==== Proof.K.Reg1Defs.lean ====
/-
  The second launch (the gated rectifier over a 4 × 4 grid of voxel tiles), stated at the buffer contents `V` the
  launch is entered from: a window's block at a grid point, and the proof data of the launch — each input buffer at
  its block, the output tile at the rectified product of the aggregate tile with one plus the batch's gate row.
-/
import proofs.«120395_j30193620091340_2_alg».proof.Proof.Gen.Kernel.Launch
import proofs.«120395_j30193620091340_2_alg».proof.Proof.Gen.Kernel.Skeleton
import proofs.«120395_j30193620091340_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The arrays as the launch finds them; after the body at point `t` each input's buffer at its block and the output's
    at the body's one stored value of the two input blocks; the scoped rest and the generator register untouched;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

end Cert.Kernel.R1

end
-- ==== Proof.K.Reg1Body.lean ====
/-
  The second launch's body obligation. At every grid point the body loads the aggregate tile and the batch's gate row
  whole, and stores one whole tile: the rectified product of the aggregate tile with one plus the gate row. So the two
  input buffers are left as found, and the output buffer — whatever it held — is left at that one stored value, a
  function of the two input blocks alone.
-/
import proofs.«120395_j30193620091340_2_alg».proof.Proof.K.Reg1Defs
import Idealize.ShloMosaic.Lib.Pipeline.Value

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body

/-- The three zero offsets, however they are spelt, are the zero offset. -/
theorem hz : (![0, 0, 0] : Fin 3 → Nat) = fun _ => 0 := funext fun a => by fin_cases a <;> rfl

/-- The whole tile, as the one rectangle the body stores through. -/
abbrev rOut : Rect S1x2048x64 := Rect.unit (s := S1x2048x64) ![0, 0, 0] S1x2048x64.size inb_S1x2048x64_S1x2048x64_0_0_0

/-- The one store is through the whole tile, so it covers the tile. -/
theorem cover (p0 : Vec F S1x2048x64 .f32) (y : S1x2048x64.Idx) :
    ∃ pc ∈ ([⟨rOut, p0⟩] : List (View.Piece (Elt F) S1x2048x64 .f32)), y ∈ pc.1.set :=
  View.cover_of_tiled [⟨rOut, p0⟩] S1x2048x64.size (by rfl) y

set_option maxHeartbeats 1000000 in
/-- The body on whole staging buffers, the inputs' at contents `x0`, `x1` and the output's at anything, runs to the
    continuation holding the inputs' as they were and the output's at the stored value of `x0` and `x1`: the two whole
    loads read `x0` and `x1`, the load of the output's old contents is not used, and the one whole store overwrites
    every entry of the output. -/
theorem sound_kernel (c : Dev nD) (E : Set ℕ) (i : grid1.Coords)
    (arg0 : Memref sig .tc .vmem S1x2048x64 .f32) (harg0 : arg0.IsWhole)
    (arg1 : Memref sig .tc .vmem S1x1x64 .f32) (harg1 : arg1.IsWhole)
    (arg2 : Memref sig .tc .vmem S1x2048x64 .f32) (harg2 : arg2.IsWhole)
    (x0 : Vec F S1x2048x64 .f32) (x1 : Vec F S1x1x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (k1_pay1 x0 x1)) -∗ K ⟨⟩))
      ⊢ wp frame (wpE (defs₀ (F := F)) Variants.none c none) E (cc1__kernel2 i arg0 harg0 arg1 harg1 arg2 harg2) K := by
  simp only [cc1__kernel2_eq_skeleton]; unfold cc1__kernel2_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover _), View.canon_unit_zero hz]
  simp only [View.readAt_eq_ld, View.ld_unit_zero (S := S1x2048x64) hz, View.ld_unit_zero (S := S1x1x64) hz]

/-! ## The body obligation, at a generic point -/

/-- What the body is called with at point `t`: the invariant, the core's dues, and each window's current staging buffer
    at what it then holds, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns: the same invariant and dues, and each buffer at what the body leaves there. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the two inputs' buffers hold their blocks, fetched at this point or not, so the body's
    triple applies at those blocks; the invariant and the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Body

/-- The body obligation of the second launch, at every point: the windows conjoined one by one, then the body's
    triple at the point. -/
theorem body_obligation (c : Dev nD) : BodyObligation (dat (F := F) V c) (defs₀ (F := F)) Variants.none () Set.univ := fun t => by
  rw [bigSep_W1, bigSep_W1]
  exact Body.sound_body V c t

end Cert.Kernel.R1

end
-- ==== Proof.K.Run.lean ====
/-
  The whole run of the program: host operations, the first launch, host operations, the second launch, host
  operations. The buffers' contents at each of the six boundaries are a fold from the launch memory: a host stretch
  leaves what its operations compute, a launch leaves its windows' arrays at what its write-backs leave and every other
  buffer as entered. Each launch is a segment over the thread state "every unscoped buffer at the boundary's
  contents, the generator register at some state, nothing owed", each host stretch a segment over the same, and the
  five chain. So every execution terminates with every unscoped buffer at the last boundary's contents; and since no
  host operation writes an argument and each launch either reads an argument through an input window or does not touch
  it, every argument ends as launched.
-/
import proofs.«120395_j30193620091340_2_alg».proof.Proof.K.Reg0Body
import proofs.«120395_j30193620091340_2_alg».proof.Proof.K.Reg1Body

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first host stretch (the first launch's entry). -/
abbrev W1 : Dev nD → Valuation τ sig (Elt F) := fun c => StableHlo.after hostOps0 (W0 m ρ c)
/-- The same read at the TensorCore's references (what the first launch's proof data take). -/
abbrev V1 : (c : Dev nD) → (b : Ref sig .tc) → Buf (Elt F) ((c : Thread nD τ).loc b) := fun c b => W1 m ρ c b
/-- At the first launch's exit: its arrays at what the pipeline leaves (the inputs as entered, each output's
    write-backs folded), every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first launch's exit contents). -/
abbrev V2 : (c : Dev nD) → (b : Ref sig .tc) → Buf (Elt F) ((c : Thread nD τ).loc b) := fun c b => W2 m ρ c b
/-- At the first launch's exit each of its arrays holds what the pipeline leaves and every other buffer what it held
    at entry. -/
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second launch's entry). -/
abbrev W3 : Dev nD → Valuation τ sig (Elt F) := fun c => StableHlo.after hostOps1 (W2 m ρ c)
/-- The same read at the TensorCore's references (what the second launch's proof data take). -/
abbrev V3 : (c : Dev nD) → (b : Ref sig .tc) → Buf (Elt F) ((c : Thread nD τ).loc b) := fun c b => W3 m ρ c b
/-- At the second launch's exit: its arrays at what the pipeline leaves, every other buffer as entered. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second launch's exit contents). -/
abbrev V4 : (c : Dev nD) → (b : Ref sig .tc) → Buf (Elt F) ((c : Thread nD τ).loc b) := fun c b => W4 m ρ c b
theorem hF1 (c : Dev nD) (w : Fin cfg1.W) : (R1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch (the return). -/
abbrev W5 : Dev nD → Valuation τ sig (Elt F) := fun c => StableHlo.after hostOps2 (W4 m ρ c)

/-! ### The arguments end as launched: no host operation writes one, and a launch reads it through an input window
    (whose array the pipeline leaves as entered) or does not touch it, so the fold at an argument's buffer walks
    back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((R0.dat (V1 m ρ) c).arrAt_in 1 rfl _).trans (R0.A_eq (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((R0.dat (V1 m ρ) c).arrAt_in 2 rfl _).trans (R0.A_eq (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- The prefetched tables' admissible contents: no launch has a table. -/
abbrev adm : (p : Fin 2) → (pcfgs (F := F) p).Adm := fun p => (cfgs p).toPCfg_adm
/-- Each launch's proof data, at its entry contents. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at what the stretch computes from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The first launch over the thread state: entered from every unscoped buffer at `W1`, left at `W2`. Its arrays are
    split out of the unscoped buffers and put back at the exit contents; the generator register goes into the
    launch's invariant with the scoped rest and comes back out of it; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (V1 m ρ) c)
    unfold Pipeline.ΦA
    iintro ⟨Hp, -, Hr⟩
    isplitl [Hr]; · iexact Hr
    iexact Hp
  hout c := by
    rw [Pipeline.ownSems0_none]
    refine BIBase.Entails.trans (R0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W3`, left at `W4`. Its invariant
    is the scoped rest beside the generator register, as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's five segments in order: a host segment per stretch from its boundary's contents, a segment per launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program IS the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state has every unscoped buffer at the last boundary's contents: the segments
    chain (each is entered from what the one before leaves; the last host stretch leaves the last thread state beside
    the dues, up to re-bracketing), and the last thread state is read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- Every argument array ends as launched: each is an unscoped buffer, held at the end at the last boundary's
    contents, which at an argument are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c)⟩)
    (run_all m ρ)

end Cert.Kernel.Whole

end
-- ==== Proof.KI.Reg0Defs.lean ====
/-
  The first launch (the soft-assignment kernel over a 4 × 16 grid of voxel tiles), stated at the buffer contents `V`
  the launch is entered from: a window's block at a grid point; the two conditions of the body in closed form (a batch's
  first tile resets the per-channel accumulator, its last tile emits it); what the accumulator holds after each
  point, by recursion on the point; the invariant that carries it between points; and the proof data of the launch —
  each input buffer at its block, the tile output at the tile's aggregate, the per-batch output at the accumulator.
-/
import proofs.«120395_j30193620091340_2_alg».proof.Proof.Gen.KernelIdeal.Launch
import proofs.«120395_j30193620091340_2_alg».proof.Proof.Gen.KernelIdeal.Skeleton
import proofs.«120395_j30193620091340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the batch's first tile": the accumulator is reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)
/-- "This is the batch's last tile": the accumulator is emitted. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-- The scratch accumulator, a whole scoped buffer of the kernel's own. -/
abbrev scM : Memref sig .tc .vmem S1x64 .f32 := Memref.whole cc0_scratch0

/-- Each window's current staging memref at point `t`, as the pipeline passes it, and its wholeness. -/
abbrev ms0 (t : Fin cfg0.N) : Memref sig .tc .vmem S1x512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64 .f32 := win0_4.stage (cfg0.slots t 4)
abbrev hs4 (t : Fin cfg0.N) : (ms4 t).IsWhole := hstage0_4 ((cfg0.slots t 4).cast nbuf0_4)

/-! ## The accumulator after each point -/

/-- One point's update of the accumulator `a`: the tile's aggregate summed over its 512 voxels, added to `a`. -/
def step (c : Dev nD) (t : Fin cfg0.N) (a : Vec F S1x64 .f32) : Vec F S1x64 .f32 :=
  k0_pay1 (k0_pay6 (iblk V c 0 t) (iblk V c 1 t) (iblk V c 2 t) a)

/-- What the scratch accumulator holds after the body at position `n`: at a batch's first tile the update of the zero
    row, otherwise the update of what the point before left. -/
def accAt (c : Dev nD) : (n : ℕ) → n < cfg0.N → Vec F S1x64 .f32
  | 0, h => step V c ⟨0, h⟩ (k0_pay3 (F := F))
  | n + 1, h => if (n + 1) % 16 = 0 then step V c ⟨n + 1, h⟩ (k0_pay3 (F := F))
      else step V c ⟨n + 1, h⟩ (accAt c n (Nat.lt_of_succ_lt h))

theorem accAt_first (c : Dev nD) (t : Fin cfg0.N) (h0 : t.val % 16 = 0) :
    accAt V c t.val t.isLt = step V c t (k0_pay3 (F := F)) := by
  obtain ⟨n, hn⟩ := t
  cases n with
  | zero => rfl
  | succ n => exact if_pos h0

theorem accAt_later (c : Dev nD) (t : Fin cfg0.N) (h0 : ¬t.val % 16 = 0) :
    accAt V c t.val t.isLt = step V c t (accAt V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The second launch's staging buffers, which this launch does not touch: each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Before the first point: the scoped buffers outside the launch's staging and the generator register, at anything.
    Before a later point: the accumulator at what the point before left, the rest as before. -/
def PhiS (c : Dev nD) : (n : ℕ) → n ≤ cfg0.N → sProp 𝕄
  | 0, _ => Pipeline.ΦA spec0 c
  | n + 1, hn => iprop(iprop(owns (c : Thread nD τ) scM fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ otherScoped c) ∗ (∃ r, prngReg c r)) := by
  cases n with
  | zero => exact absurd rfl hz
  | succ n => rfl

/-! ## The launch's proof data -/

/-- The arrays as the launch finds them; after the body at point `t` each input's buffer at its block, the tile output at
    the tile's aggregate, the per-batch output at the accumulator (consulted at a batch's last tile only: elsewhere the
    window is idle and its buffer handed back untouched); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay5 (iblk V c 0 t) (iblk V c 1 t) (iblk V c 2 t)
    | ⟨4, _⟩ => k0_pay2 (accAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay5 (iblk V c 0 t) (iblk V c 1 t) (iblk V c 2 t) := by dsimp only [dat]
theorem after_4 (c : Dev nD) (t : Fin cfg0.N) : (dat V c).after 4 t = k0_pay2 (accAt V c t.val t.isLt) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Cert.KernelIdeal.R0

end
-- ==== Proof.KI.Reg0RunA.lean ====
/-
  The soft-assignment kernel's body at a batch's first tile that is not its last: the accumulator is reset to the zero
  row, the tile's aggregate is stored whole into the tile output, its sum over the 512 voxels is added to the (zero)
  accumulator, and the per-batch output is left alone.
-/
import proofs.«120395_j30193620091340_2_alg».proof.Proof.KI.Reg0Defs
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Body

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- On whole memrefs — the three inputs at `x0`, `x1`, `x2`, the tile output and the accumulator at anything, the per-batch
    output at `xi` — the body at a batch's first tile that is not its last runs to a continuation that is handed the inputs
    as they were, the tile output at the tile's aggregate, the per-batch output untouched at `xi`, and the accumulator
    at the tile's column sums added to the zero row. Each stored buffer is read back through its one covering store;
    the zero row stored first is what the later load of the accumulator reads. -/
theorem runA (c : Dev nD) (i : grid0.Coords)
    (arg2 : Memref sig .tc .vmem S1x512x64 .f32) (harg2 : arg2.IsWhole)
    (arg3 : Memref sig .tc .vmem S32x64 .f32) (harg3 : arg3.IsWhole)
    (arg4 : Memref sig .tc .vmem S32x64 .f32) (harg4 : arg4.IsWhole)
    (arg5 : Memref sig .tc .vmem S1x512x64 .f32) (harg5 : arg5.IsWhole)
    (arg6 : Memref sig .tc .vmem S1x1x64 .f32) (harg6 : arg6.IsWhole)
    (arg7 : Memref sig .tc .vmem S1x64 .f32) (harg7 : arg7.IsWhole)
    (hc0 : condFirst i) (hc1 : ¬condLast i)
    (x0 : Vec F S1x512x64 .f32) (x1 x2 : Vec F S32x64 .f32) (xi : Vec F S1x1x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 x0 x1 x2) ∗ owns (c : Thread nD τ) arg6 fullShare xi
            ∗ owns (c : Thread nD τ) arg7 fullShare (k0_pay1 (k0_pay6 x0 x1 x2 (k0_pay3 (F := F))))) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%f6, %hf6, H6⟩, ⟨%d7, %f7, -, H7⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero (S := S1x512x64) hz3 inb_S1x512x64_S1x512x64_0_0_0 y⟩)]
    rw [View.canon_unit_zero hz3]
    simp only [View.readAt_eq_ld, harg2.read_unread, harg3.read_unread, harg4.read_unread,
      View.ld_unit_zero (S := S1x512x64) hz3, View.ld_unit_zero (S := S32x64) hz2]
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero (S := S1x64) hz2 inb_S1x64_S1x64_0_0 y⟩)]
  rw [View.canon_cons_unit_zero (S := S1x64) hz2]
  sl_unfold_words
  rw [View.readCov_unit_zero (S := S1x64) _ hz2]
  simp only [View.readAt_eq_ld, harg2.read_unread, harg3.read_unread, harg4.read_unread,
    View.ld_unit_zero (S := S1x512x64) hz3, View.ld_unit_zero (S := S32x64) hz2]

end Body

end Cert.KernelIdeal.R0

end
-- ==== Proof.KI.Reg0RunB.lean ====
/-
  The soft-assignment kernel's body at a tile that is neither a batch's first nor its last: the tile's aggregate is
  stored whole into the tile output, its sum over the 512 voxels is added to the accumulator the tile before left, and
  the per-batch output is left alone.
-/
import proofs.«120395_j30193620091340_2_alg».proof.Proof.KI.Reg0Defs
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Body

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- On whole memrefs — the three inputs at `x0`, `x1`, `x2`, the tile output at anything, the per-batch output at `xi`,
    the accumulator at `xs` — the body at a tile that is neither first nor last of its batch runs to a continuation that
    is handed the inputs as they were, the tile output at the tile's aggregate, the per-batch output untouched at `xi`,
    and the accumulator at the tile's column sums added to `xs`. -/
theorem runB (c : Dev nD) (i : grid0.Coords)
    (arg2 : Memref sig .tc .vmem S1x512x64 .f32) (harg2 : arg2.IsWhole)
    (arg3 : Memref sig .tc .vmem S32x64 .f32) (harg3 : arg3.IsWhole)
    (arg4 : Memref sig .tc .vmem S32x64 .f32) (harg4 : arg4.IsWhole)
    (arg5 : Memref sig .tc .vmem S1x512x64 .f32) (harg5 : arg5.IsWhole)
    (arg6 : Memref sig .tc .vmem S1x1x64 .f32) (harg6 : arg6.IsWhole)
    (arg7 : Memref sig .tc .vmem S1x64 .f32) (harg7 : arg7.IsWhole)
    (hc0 : ¬condFirst i) (hc1 : ¬condLast i)
    (x0 : Vec F S1x512x64 .f32) (x1 x2 : Vec F S32x64 .f32) (xi : Vec F S1x1x64 .f32) (xs : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 x0 x1 x2) ∗ owns (c : Thread nD τ) arg6 fullShare xi
            ∗ owns (c : Thread nD τ) arg7 fullShare (k0_pay1 (k0_pay6 x0 x1 x2 xs))) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf2; obtain rfl := harg3.eq_unread hf3; obtain rfl := harg4.eq_unread hf4; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero (S := S1x512x64) hz3 inb_S1x512x64_S1x512x64_0_0_0 y⟩)]
    rw [View.canon_unit_zero hz3]
    simp only [View.readAt_eq_ld, harg2.read_unread, harg3.read_unread, harg4.read_unread,
      View.ld_unit_zero (S := S1x512x64) hz3, View.ld_unit_zero (S := S32x64) hz2]
  isplitl [H6]
  · iexists _; isplitr; · ipureintro; exact harg6.read_unread _
    iexact H6
  iexists _; isplitr
  swap; · iexact H7
  ipureintro
  rw [View.read_writes_eq_canon _ _ _ (fun y => ⟨_, List.mem_cons_self, View.mem_set_unit_zero (S := S1x64) hz2 inb_S1x64_S1x64_0_0 y⟩)]
  rw [View.canon_cons_unit_zero (S := S1x64) hz2]
  simp only [View.readAt_eq_ld, harg2.read_unread, harg3.read_unread, harg4.read_unread, harg7.read_unread,
    View.ld_unit_zero (S := S1x512x64) hz3, View.ld_unit_zero (S := S32x64) hz2, View.ld_unit_zero (S := S1x64) hz2]

end Body

end Cert.KernelIdeal.R0

end
-- ==== Proof.KI.Reg0RunC.lean ====
/-
  The soft-assignment kernel's body at a batch's last tile (which is not its first): the tile's aggregate is stored whole
  into the tile output, its sum over the 512 voxels is added to the accumulator the tile before left, and the
  accumulator just stored is read back and emitted, reshaped, into the per-batch output.
-/
import proofs.«120395_j30193620091340_2_alg».proof.Proof.KI.Reg0Defs
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Body

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

set_option maxHeartbeats 1000000 in
/-- On whole memrefs — the three inputs at `x0`, `x1`, `x2`, the tile output and the per-batch output at anything, the
    accumulator at `xs` — the body at a batch's last tile runs to a continuation that is handed the inputs as they were,
    the tile output at the tile's aggregate, the accumulator at the tile's column sums added to `xs`, and the per-batch
    output at that same row reshaped: the load that feeds it reads the accumulator's one covering store back. -/
theorem runC (c : Dev nD) (i : grid0.Coords)
    (arg2 : Memref sig .tc .vmem S1x512x64 .f32) (harg2 : arg2.IsWhole)
    (arg3 : Memref sig .tc .vmem S32x64 .f32) (harg3 : arg3.IsWhole)
    (arg4 : Memref sig .tc .vmem S32x64 .f32) (harg4 : arg4.IsWhole)
    (arg5 : Memref sig .tc .vmem S1x512x64 .f32) (harg5 : arg5.IsWhole)
    (arg6 : Memref sig .tc .vmem S1x1x64 .f32) (harg6 : arg6.IsWhole)
    (arg7 : Memref sig .tc .vmem S1x64 .f32) (harg7 : arg7.IsWhole)
    (hc0 : ¬condFirst i) (hc1 : condLast i)
    (x0 : Vec F S1x512x64 .f32) (x1 x2 : Vec F S32x64 .f32) (xs : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 x0 x1 x2) ∗ owns (c : Thread nD τ) arg6 fullShare (k0_pay2 (k0_pay1 (k0_pay6 x0 x1 x2 xs)))
            ∗ owns (c : Thread nD τ) arg7 fullShare (k0_pay1 (k0_pay6 x0 x1 x2 xs))) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero (S := S1x512x64) hz3 inb_S1x512x64_S1x512x64_0_0_0 y⟩)]
    rw [View.canon_unit_zero hz3]
    simp only [View.readAt_eq_ld, harg2.read_unread, harg3.read_unread, harg4.read_unread,
      View.ld_unit_zero (S := S1x512x64) hz3, View.ld_unit_zero (S := S32x64) hz2]
  isplitl [H6]
  · iexists _; isplitr
    swap; · iexact H6
    ipureintro
    rw [View.read_writes_eq_canon _ _ _ (fun y => ⟨_, List.mem_cons_self, View.mem_set_unit_zero (S := S1x1x64) hz3 inb_S1x1x64_S1x1x64_0_0_0 y⟩)]
    rw [View.canon_cons_unit_zero (S := S1x1x64) hz3]
    sl_unfold_words
    rw [View.readCov_unit_zero (S := S1x64) _ hz2]
    simp only [View.readAt_eq_ld, harg2.read_unread, harg3.read_unread, harg4.read_unread, harg7.read_unread,
    View.ld_unit_zero (S := S1x512x64) hz3, View.ld_unit_zero (S := S32x64) hz2, View.ld_unit_zero (S := S1x64) hz2]
  iexists _; isplitr
  swap; · iexact H7
  ipureintro
  sl_unfold_words
  rw [View.read_writes_eq_canon _ _ _ (fun y => ⟨_, List.mem_cons_self, View.mem_set_unit_zero (S := S1x64) hz2 inb_S1x64_S1x64_0_0 y⟩)]
  rw [View.canon_cons_unit_zero (S := S1x64) hz2]
  simp only [View.readAt_eq_ld, harg2.read_unread, harg3.read_unread, harg4.read_unread, harg7.read_unread,
    View.ld_unit_zero (S := S1x512x64) hz3, View.ld_unit_zero (S := S32x64) hz2, View.ld_unit_zero (S := S1x64) hz2]

end Body

end Cert.KernelIdeal.R0

end
-- ==== Proof.KI.Reg0Body.lean ====
/-
  The first launch's body obligation: at every grid point the kernel body, called on the windows' current staging
  memrefs and the scratch accumulator, leaves each input buffer at its block, the tile output at the tile's aggregate,
  the per-batch output at the emitted accumulator (at a batch's last tile; elsewhere untouched), and carries the
  accumulator's contents from point to point through the launch's invariant. The three cases of the body (a batch's
  first tile, a middle tile, its last tile) are the three runs imported here; which case a point is in is read off the
  closed forms of the body's two conditions.
-/
import proofs.«120395_j30193620091340_2_alg».proof.Proof.KI.Reg0RunA
import proofs.«120395_j30193620091340_2_alg».proof.Proof.KI.Reg0RunB
import proofs.«120395_j30193620091340_2_alg».proof.Proof.KI.Reg0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body

/-- What the launch hands the body before the first point, with the scratch accumulator as a memref owned at some
    contents and the six staging buffers of the second launch riding along. -/
theorem PhiA_eq (c : Dev nD) :
    (Pipeline.ΦA spec0 c : sProp 𝕄)
      = iprop(iprop((∃ d, owns (c : Thread nD τ) scM fullShare d) ∗ otherScoped (F := F) c) ∗ (∃ r, prngReg c r)) := by
  unfold Pipeline.ΦA; rw [scopedRest0_eq]; unfold otherScoped; simp only [scM, owns_whole]; try rfl

/-- The three inputs and the tile output are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The per-batch output is live at a batch's last tile and idle elsewhere, where it is not written back either. -/
theorem live4 : ∀ t : Fin cfg0.N, t.val % 16 = 15 → cfg0.idle 4 (grid0.coords t) = false := by decide +kernel
theorem idle4 : ∀ t : Fin cfg0.N, ¬t.val % 16 = 15 → cfg0.idle 4 (grid0.coords t) = true := by decide +kernel
theorem noFlush4 (t : Fin cfg0.N) (h : ¬t.val % 16 = 15) : (cfg0.win 4).flush t = false :=
  Bool.eq_false_iff.mpr fun hf => h ((flush0_4 t).mp hf)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the point's position in its batch says which of the
    three runs applies; the invariant hands the run the accumulator (at anything before the very first point, at what
    the point before left otherwise) and takes it back at this point's contents, the rest of the invariant and the
    core's debts passing through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  by_cases h0 : t.val % 16 = 0
  · by_cases h1 : t.val % 16 = 15
    · exfalso; omega
    · rw [Dat.leavesExact_idle (dat V c) 4 t (idle4 t h1) (noFlush4 t h1)]
      rw [accAt_first V c t h0]; unfold step
      by_cases hz : t.val = 0
      · rw [PhiS_castSucc V c t, PhiS_zero V c _ _ hz, PhiA_eq]
        iintro ⟨⟨⟨HS, Hrest⟩, Hg⟩, Ho, ⟨%d0, H0⟩, ⟨%d1, H1⟩, ⟨%d2, H2⟩, ⟨%d3, H3⟩, ⟨%d4, H4⟩⟩
        iapply (runA c (grid0.coords t) _ _ _ _ _ _ _ _ _ _ _ _ ((hcondFirst t).mpr h0) (fun h => h1 ((hcondLast t).mp h)) (iblk V c 0 t) (iblk V c 1 t) (iblk V c 2 t) ((dat V c).before 4 t d4) Set.univ _)
        isplitl [H0]; · iexact H0
        isplitl [H1]; · iexact H1
        isplitl [H2]; · iexact H2
        isplitl [H3]; · iexists _; iexact H3
        isplitl [H4]; · iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (runA c (grid0.coords t) _ _ _ _ _ _ _ _ _ _ _ _ ((hcondFirst t).mpr h0) (fun h => h1 ((hcondLast t).mp h)) (iblk V c 0 t) (iblk V c 1 t) (iblk V c 2 t) ((dat V c).before 4 t d4) Set.univ _)
        isplitl [H0]; · iexact H0
        isplitl [H1]; · iexact H1
        isplitl [H2]; · iexact H2
        isplitl [H3]; · iexists _; iexact H3
        isplitl [H4]; · iexact H4
        isplitl [HS]; · iexists _; iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 16 = 15
    · rw [show (dat V c).leavesExact 4 t = owns (c : Thread nD τ) (ms4 t) fullShare ((dat V c).after 4 t) from by
    unfold Dat.leavesExact; rw [live4 t h1], after_4]
      rw [accAt_later V c t h0]; unfold step
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (runC c (grid0.coords t) _ _ _ _ _ _ _ _ _ _ _ _ (fun h => h0 ((hcondFirst t).mp h)) ((hcondLast t).mpr h1) (iblk V c 0 t) (iblk V c 1 t) (iblk V c 2 t) _ Set.univ _)
        isplitl [H0]; · iexact H0
        isplitl [H1]; · iexact H1
        isplitl [H2]; · iexact H2
        isplitl [H3]; · iexists _; iexact H3
        isplitl [H4]; · iexists _; iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexact H4
    · rw [Dat.leavesExact_idle (dat V c) 4 t (idle4 t h1) (noFlush4 t h1)]
      rw [accAt_later V c t h0]; unfold step
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩⟩
        iapply (runB c (grid0.coords t) _ _ _ _ _ _ _ _ _ _ _ _ (fun h => h0 ((hcondFirst t).mp h)) (fun h => h1 ((hcondLast t).mp h)) (iblk V c 0 t) (iblk V c 1 t) (iblk V c 2 t) ((dat V c).before 4 t d4) _ Set.univ _)
        isplitl [H0]; · iexact H0
        isplitl [H1]; · iexact H1
        isplitl [H2]; · iexact H2
        isplitl [H3]; · iexists _; iexact H3
        isplitl [H4]; · iexact H4
        isplitl [HS]; · iexact HS
        iintro ⟨H0, H1, H2, H3, H4, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexists _; iexact H4

/-- After any point but the first the invariant gives back what the launch handed over: the accumulator's named
    contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

end Body

/-- The library's body obligation, at every point. -/
theorem body_obligation (c : Dev nD) : BodyObligation (dat (F := F) V c) (defs₀ (F := F)) Variants.none () Set.univ := fun t => by
  rw [bigSep_W0, bigSep_W0]
  exact Body.sound_body V c t

/-- What the launch hands over is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives it back. -/
theorem hout (c : Dev nD) : (dat V c).Φ (Fin.last cfg0.N) ⊢ Pipeline.ΦA spec0 c :=
  Body.Phi_out V c _ (by rw [Fin.val_last]; have : cfg0.N = 64 := N_0; omega)

end Cert.KernelIdeal.R0

end
-- ==== Proof.KI.Reg1Defs.lean ====
/-
  The second launch (the gated rectifier over a 4 × 4 grid of voxel tiles), stated at the buffer contents `V` the
  launch is entered from: a window's block at a grid point, and the proof data of the launch — each input buffer at
  its block, the output tile at the rectified product of the aggregate tile with one plus the batch's gate row.
-/
import proofs.«120395_j30193620091340_2_alg».proof.Proof.Gen.KernelIdeal.Launch
import proofs.«120395_j30193620091340_2_alg».proof.Proof.Gen.KernelIdeal.Skeleton
import proofs.«120395_j30193620091340_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The arrays as the launch finds them; after the body at point `t` each input's buffer at its block and the output's
    at the body's one stored value of the two input blocks; the scoped rest and the generator register untouched;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

end Cert.KernelIdeal.R1

end
-- ==== Proof.KI.Reg1Body.lean ====
/-
  The second launch's body obligation. At every grid point the body loads the aggregate tile and the batch's gate row
  whole, and stores one whole tile: the rectified product of the aggregate tile with one plus the gate row. So the two
  input buffers are left as found, and the output buffer — whatever it held — is left at that one stored value, a
  function of the two input blocks alone.
-/
import proofs.«120395_j30193620091340_2_alg».proof.Proof.KI.Reg1Defs
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body

/-- The three zero offsets, however they are spelt, are the zero offset. -/
theorem hz : (![0, 0, 0] : Fin 3 → Nat) = fun _ => 0 := funext fun a => by fin_cases a <;> rfl

/-- The whole tile, as the one rectangle the body stores through. -/
abbrev rOut : Rect S1x2048x64 := Rect.unit (s := S1x2048x64) ![0, 0, 0] S1x2048x64.size inb_S1x2048x64_S1x2048x64_0_0_0

/-- The one store is through the whole tile, so it covers the tile. -/
theorem cover (p0 : Vec F S1x2048x64 .f32) (y : S1x2048x64.Idx) :
    ∃ pc ∈ ([⟨rOut, p0⟩] : List (View.Piece (Elt F) S1x2048x64 .f32)), y ∈ pc.1.set :=
  View.cover_of_tiled [⟨rOut, p0⟩] S1x2048x64.size (by rfl) y

set_option maxHeartbeats 1000000 in
/-- The body on whole staging buffers, the inputs' at contents `x0`, `x1` and the output's at anything, runs to the
    continuation holding the inputs' as they were and the output's at the stored value of `x0` and `x1`: the two whole
    loads read `x0` and `x1`, the load of the output's old contents is not used, and the one whole store overwrites
    every entry of the output. -/
theorem sound_kernel (c : Dev nD) (E : Set ℕ) (i : grid1.Coords)
    (arg0 : Memref sig .tc .vmem S1x2048x64 .f32) (harg0 : arg0.IsWhole)
    (arg1 : Memref sig .tc .vmem S1x1x64 .f32) (harg1 : arg1.IsWhole)
    (arg2 : Memref sig .tc .vmem S1x2048x64 .f32) (harg2 : arg2.IsWhole)
    (x0 : Vec F S1x2048x64 .f32) (x1 : Vec F S1x1x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (k1_pay1 x0 x1)) -∗ K ⟨⟩))
      ⊢ wp frame (wpE (defs₀ (F := F)) Variants.none c none) E (cc1__kernel2 i arg0 harg0 arg1 harg1 arg2 harg2) K := by
  simp only [cc1__kernel2_eq_skeleton]; unfold cc1__kernel2_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover _), View.canon_unit_zero hz]
  simp only [View.readAt_eq_ld, View.ld_unit_zero (S := S1x2048x64) hz, View.ld_unit_zero (S := S1x1x64) hz]

/-! ## The body obligation, at a generic point -/

/-- What the body is called with at point `t`: the invariant, the core's dues, and each window's current staging buffer
    at what it then holds, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns: the same invariant and dues, and each buffer at what the body leaves there. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the two inputs' buffers hold their blocks, fetched at this point or not, so the body's
    triple applies at those blocks; the invariant and the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Body

/-- The body obligation of the second launch, at every point: the windows conjoined one by one, then the body's
    triple at the point. -/
theorem body_obligation (c : Dev nD) : BodyObligation (dat (F := F) V c) (defs₀ (F := F)) Variants.none () Set.univ := fun t => by
  rw [bigSep_W1, bigSep_W1]
  exact Body.sound_body V c t

end Cert.KernelIdeal.R1

end
-- ==== Proof.KI.Run.lean ====
/-
  The whole run of the program: host operations, the first launch, host operations, the second launch, host
  operations. The buffers' contents at each of the six boundaries are a fold from the launch memory: a host stretch
  leaves what its operations compute, a launch leaves its windows' arrays at what its write-backs leave and every other
  buffer as entered. Each launch is a segment over the thread state "every unscoped buffer at the boundary's
  contents, the generator register at some state, nothing owed", each host stretch a segment over the same, and the
  five chain. So every execution terminates with every unscoped buffer at the last boundary's contents; and since no
  host operation writes an argument and each launch either reads an argument through an input window or does not touch
  it, every argument ends as launched.
-/
import proofs.«120395_j30193620091340_2_alg».proof.Proof.KI.Reg0Body
import proofs.«120395_j30193620091340_2_alg».proof.Proof.KI.Reg1Body

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first host stretch (the first launch's entry). -/
abbrev W1 : Dev nD → Valuation τ sig (Elt F) := fun c => StableHlo.after hostOps0 (W0 m ρ c)
/-- The same read at the TensorCore's references (what the first launch's proof data take). -/
abbrev V1 : (c : Dev nD) → (b : Ref sig .tc) → Buf (Elt F) ((c : Thread nD τ).loc b) := fun c b => W1 m ρ c b
/-- At the first launch's exit: its arrays at what the pipeline leaves (the inputs as entered, each output's
    write-backs folded), every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first launch's exit contents). -/
abbrev V2 : (c : Dev nD) → (b : Ref sig .tc) → Buf (Elt F) ((c : Thread nD τ).loc b) := fun c b => W2 m ρ c b
/-- At the first launch's exit each of its arrays holds what the pipeline leaves and every other buffer what it held
    at entry. -/
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second launch's entry). -/
abbrev W3 : Dev nD → Valuation τ sig (Elt F) := fun c => StableHlo.after hostOps1 (W2 m ρ c)
/-- The same read at the TensorCore's references (what the second launch's proof data take). -/
abbrev V3 : (c : Dev nD) → (b : Ref sig .tc) → Buf (Elt F) ((c : Thread nD τ).loc b) := fun c b => W3 m ρ c b
/-- At the second launch's exit: its arrays at what the pipeline leaves, every other buffer as entered. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second launch's exit contents). -/
abbrev V4 : (c : Dev nD) → (b : Ref sig .tc) → Buf (Elt F) ((c : Thread nD τ).loc b) := fun c b => W4 m ρ c b
theorem hF1 (c : Dev nD) (w : Fin cfg1.W) : (R1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch (the return). -/
abbrev W5 : Dev nD → Valuation τ sig (Elt F) := fun c => StableHlo.after hostOps2 (W4 m ρ c)

/-! ### The arguments end as launched: no host operation writes one, and a launch reads it through an input window
    (whose array the pipeline leaves as entered) or does not touch it, so the fold at an argument's buffer walks
    back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((R0.dat (V1 m ρ) c).arrAt_in 1 rfl _).trans (R0.A_eq (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((R0.dat (V1 m ρ) c).arrAt_in 2 rfl _).trans (R0.A_eq (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- The prefetched tables' admissible contents: no launch has a table. -/
abbrev adm : (p : Fin 2) → (pcfgs (F := F) p).Adm := fun p => (cfgs p).toPCfg_adm
/-- Each launch's proof data, at its entry contents. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at what the stretch computes from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The first launch over the thread state: entered from every unscoped buffer at `W1`, left at `W2`. Its arrays are
    split out of the unscoped buffers and put back at the exit contents; the generator register goes into the
    launch's invariant with the scoped rest and comes back out of it; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (V1 m ρ) c)
    unfold Pipeline.ΦA
    iintro ⟨Hp, -, Hr⟩
    isplitl [Hr]; · iexact Hr
    iexact Hp
  hout c := by
    rw [Pipeline.ownSems0_none]
    refine BIBase.Entails.trans (R0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W3`, left at `W4`. Its invariant
    is the scoped rest beside the generator register, as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's five segments in order: a host segment per stretch from its boundary's contents, a segment per launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program IS the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state has every unscoped buffer at the last boundary's contents: the segments
    chain (each is entered from what the one before leaves; the last host stretch leaves the last thread state beside
    the dues, up to re-bracketing), and the last thread state is read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- Every argument array ends as launched: each is an unscoped buffer, held at the end at the last boundary's
    contents, which at an argument are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c)⟩)
    (run_all m ρ)

end Cert.KernelIdeal.Whole

end
-- ==== Proof.KI.Host.lean ====
/-
  What the host operations around the two launches leave, read off the boundary contents: the features the first
  launch is entered with are the transposed reshape of the first argument; the tables are the arguments themselves;
  the second launch is entered with the first launch's aggregate array untouched and with the gate computed from its
  per-batch sums; the program's result is the transposed-back reshape of the second launch's output.
-/
import proofs.«120395_j30193620091340_2_alg».proof.Proof.KI.Run
import Idealize.ShloMosaic.Lib.StableHlo.Run

set_option maxRecDepth 16384

noncomputable section

namespace Cert.KernelIdeal.HostVals

open Cert.KernelIdeal Cert.KernelIdeal.Gen Cert.KernelIdeal.Whole
open Idealize.ShloMosaic Idealize.ShloMosaic.TcCoe Idealize.SL.Sem Idealize.ShloMosaic.StableHlo

variable {F : FTy → Type} [FloatOps F]

/-- The gate as the host computes it between the launches from the per-batch sums `s`: the mean over the 32
    codewords, the linear layer with weights `x3` (transposed) and bias `x4`, the logistic function written as
    `1 / (1 + exp (−·))`. -/
def gate (s : (⟨S4x64, .f32⟩ : BufTy).Contents (Elt F)) (x3 : (⟨S64x64, .f32⟩ : BufTy).Contents (Elt F))
    (x4 : (⟨S64, .f32⟩ : BufTy).Contents (Elt F)) : (⟨S4x64, .f32⟩ : BufTy).Contents (Elt F) :=
  Host.divf (broadcastInDim S4x64 ![] bcast_S_S4x64 (constant (F := F) S_ .f32 0x3F800000#32))
    (addf (broadcastInDim S4x64 ![] bcast_S_S4x64 (constant (F := F) S_ .f32 0x3F800000#32))
      (Host.exp (Host.negf (addf
        (Host.dotGeneral dot_S4x64_S64x64_S4x64_1_0_0_1_n_n none
          (Host.divf s (broadcastInDim S4x64 ![] bcast_S_S4x64 (constant (F := F) S_ .f32 0x42000000#32)))
          (transpose S64x64 [1, 0] x3 transposes_S64x64_S64x64_1_0))
        (broadcastInDim S4x64 ![0, 1] bcast_S1x64_S4x64_0_1 (broadcastInDim S1x64 ![1] bcast_S64_S1x64_1 x4))))))

variable (m : (ℓ : Loc nD τ sig) → Buf (Elt F) ℓ) (ρ : Dev nD → PrngReg)

theorem V1_feat (c : Dev nD) :
    V1 m ρ c main_v1 = transpose S4x8192x64 [0, 2, 1]
      (shapeCast S4x64x8192 (m ((c : Thread nD τ).loc main_arg0)) shapeCasts_S4x64x8x32x32_S4x64x8192)
      transposes_S4x64x8192_S4x8192x64_0_2_1 := by
  show StableHlo.after hostOps0 (W0 m ρ c) (Proc.devRef .tc main_v1) = _
  after_results
  rfl

theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results

theorem V3_E (c : Dev nD) : V3 m ρ c main_v2_0 = (R0.dat (V1 m ρ) c).arrAt 3 cfg0.N := by
  show StableHlo.after hostOps1 (W2 m ρ c) (Proc.devRef .tc main_v2_0) = _
  after_results
  exact W2_arr m ρ c 3

theorem V3_gate (c : Dev nD) :
    V3 m ρ c main_v17 = shapeCast S4x1x64
      (gate (shapeCast S4x64 ((R0.dat (V1 m ρ) c).arrAt 4 cfg0.N) shapeCasts_S4x1x64_S4x64)
        (m ((c : Thread nD τ).loc main_arg3)) (m ((c : Thread nD τ).loc main_arg4)))
      shapeCasts_S4x64_S4x1x64 := by
  show StableHlo.after hostOps1 (W2 m ρ c) (Proc.devRef .tc main_v17) = _
  after_results
  have e4 : W2 m ρ c (Proc.devRef .tc main_v2_1) = (R0.dat (V1 m ρ) c).arrAt 4 cfg0.N := W2_arr m ρ c 4
  have e3 : W2 m ρ c (Proc.devRef .tc main_arg3) = m ((c : Thread nD τ).loc main_arg3) :=
    (W2_of_ne m ρ c main_arg3 (by decide)).trans (by
      show StableHlo.after hostOps0 (W0 m ρ c) (Proc.devRef .tc main_arg3) = _
      after_results)
  have e5 : W2 m ρ c (Proc.devRef .tc main_arg4) = m ((c : Thread nD τ).loc main_arg4) :=
    (W2_of_ne m ρ c main_arg4 (by decide)).trans (by
      show StableHlo.after hostOps0 (W0 m ρ c) (Proc.devRef .tc main_arg4) = _
      after_results)
  rw [e4, e3, e5]
  unfold gate
  rfl

theorem W5_out (c : Dev nD) :
    W5 m ρ c (Proc.devRef .tc main_v20) = shapeCast S4x64x8x32x32
      (transpose S4x64x8192 [0, 2, 1] ((R1.dat (V3 m ρ) c).arrAt 2 cfg1.N) transposes_S4x8192x64_S4x64x8192_0_2_1)
      shapeCasts_S4x64x8192_S4x64x8x32x32 := by
  show StableHlo.after hostOps2 (W4 m ρ c) (Proc.devRef .tc main_v20) = _
  after_results
  have e : W4 m ρ c (Proc.devRef .tc main_v18) = (R1.dat (V3 m ρ) c).arrAt 2 cfg1.N := W4_arr m ρ c 2
  rw [e]
  rfl

end Cert.KernelIdeal.HostVals

end
-- ==== Proof.Spec.lean ====
/-
  The mathematics of one voxel-channel cell of the soft codebook assignment, on the extended reals, the arrays made
  of such cells, and the laws that join the two programs' arrangements of them.

  A cell is a feature value `x` with the 32 codeword entries `cw k` and scales `sc k` of its channel. Its logits are
  `sc k · (x − cw k)²`; its weights the softmax of the logits over `k` (each logit less the largest, exponentiated,
  divided by the sum of the exponentials); its aggregate the sum over `k` of weight times residual `x − cw k`.
  The laws: a double sum over voxels and codewords may be taken in either order (the extended reals are a
  commutative monoid under addition, the infinities included); sixteen tiles of 512 voxels are the 8192 voxels;
  `e · (1 + g) = e + e · g` whenever `g` is not negative, at an infinite `e` too; a logistic value is never negative.
-/
import Idealize.ShloMosaic.PureOps.Ideal
import Idealize.ShloMosaic.PureOps.Ideal.Laws
import Idealize.ShloMosaic.Lib.ValueIdx

noncomputable section

namespace Cert.VQ

open Idealize.ShloMosaic

/-- The value the pattern of −∞ denotes (kept as the pattern: both programs start their maximum from it). -/
abbrev negInf : EReal := Ideal.ofBits .f32 0xFF800000#32
/-- The value the pattern of +0 denotes. -/
abbrev zeroPat : EReal := Ideal.ofBits .f32 0x00000000#32
/-- The value the pattern of 1 denotes. -/
abbrev onePat : EReal := Ideal.ofBits .f32 0x3F800000#32

theorem zeroPat_eq : zeroPat = 0 := Ideal.ofBits_zero_f32
theorem onePat_eq : onePat = 1 := IdealRules.sign_bit.ideal_onePat .f32

/-! ## One cell -/

/-- The logit of codeword `k`: its scale times the squared residual. -/
def logit (x : EReal) (cw sc : Fin 32 → EReal) (k : Fin 32) : EReal := sc k * ((x - cw k) * (x - cw k))
/-- The largest logit, from −∞. -/
def top (x : EReal) (cw sc : Fin 32 → EReal) : EReal :=
  max negInf ((Finset.univ : Finset (Fin 32)).fold max negInf (logit x cw sc))
/-- The unnormalised weight of codeword `k`. -/
def wt (x : EReal) (cw sc : Fin 32 → EReal) (k : Fin 32) : EReal := Ideal.exp (logit x cw sc k - top x cw sc)
/-- Their sum. -/
def mass (x : EReal) (cw sc : Fin 32 → EReal) : EReal := ∑ k : Fin 32, wt x cw sc k
/-- Codeword `k`'s share of the aggregate: its softmax weight times its residual. -/
def contrib (x : EReal) (cw sc : Fin 32 → EReal) (k : Fin 32) : EReal :=
  Ideal.div (wt x cw sc k) (mass x cw sc) * (x - cw k)
/-- The cell's aggregate. -/
def cellE (x : EReal) (cw sc : Fin 32 → EReal) : EReal := ∑ k : Fin 32, contrib x cw sc k

/-! ## The arrays -/

/-- Column `d` of a 32 × 64 table, as a function of the row. -/
abbrev col (tbl : (⟨2, ![32, 64]⟩ : Shape).Idx → EReal) (d : Fin 64) : Fin 32 → EReal := fun k => tbl (ValueIdx.ix2 k d)

/-- The aggregate of every voxel and channel: from the features `I` (batch, voxel, channel) and the two tables. -/
def Earr (I : (⟨3, ![4, 8192, 64]⟩ : Shape).Idx → EReal) (cw sc : (⟨2, ![32, 64]⟩ : Shape).Idx → EReal) :
    (⟨3, ![4, 8192, 64]⟩ : Shape).Idx → EReal :=
  fun i => cellE (I i) (col cw (⟨(i 2).val, (i 2).isLt⟩ : Fin 64)) (col sc (⟨(i 2).val, (i 2).isLt⟩ : Fin 64))

theorem Earr_ix (I : (⟨3, ![4, 8192, 64]⟩ : Shape).Idx → EReal) (cw sc : (⟨2, ![32, 64]⟩ : Shape).Idx → EReal)
    (b : Fin 4) (n : Fin 8192) (d : Fin 64) :
    Earr I cw sc (ValueIdx.ix3 b n d) = cellE (I (ValueIdx.ix3 b n d)) (col cw d) (col sc d) := rfl

/-- A batch's aggregate summed over its voxels, per channel. -/
def Gsum (E : (⟨3, ![4, 8192, 64]⟩ : Shape).Idx → EReal) (b : Fin 4) (d : Fin 64) : EReal :=
  ∑ n : Fin 8192, E (ValueIdx.ix3 b n d)

/-- The rectified gated value: an aggregate `e` times one plus a gate `g`, or zero where that is negative. -/
def gated (e g : EReal) : EReal := max (e * (onePat + g)) zeroPat

/-! ## The laws -/

/-- Voxels then codewords, or codewords then voxels, each sum started from the zero pattern: one double sum. -/
theorem sum_exchange {N K : Nat} (f : Fin N → Fin K → EReal) :
    zeroPat + ∑ k : Fin K, (zeroPat + ∑ n : Fin N, f n k) = ∑ n : Fin N, ∑ k : Fin K, f n k := by
  simp only [zeroPat_eq, zero_add]
  exact Finset.sum_comm

theorem sum_tiles_range (g : ℕ → EReal) (a : ℕ) :
    ∑ j ∈ Finset.range a, ∑ r ∈ Finset.range 512, g (512 * j + r) = ∑ n ∈ Finset.range (512 * a), g n := by
  induction a with
  | zero => simp
  | succ a ih => rw [Finset.sum_range_succ, ih, Nat.mul_succ, Finset.sum_range_add]

/-- Sixteen tiles of 512 consecutive voxels are the 8192 voxels. -/
theorem sum_tiles (g : ℕ → EReal) :
    ∑ j ∈ Finset.range 16, ∑ r : Fin 512, g (512 * j + r.val) = ∑ n : Fin 8192, g n.val := by
  have h : ∀ j ∈ Finset.range 16, ∑ r : Fin 512, g (512 * j + r.val) = ∑ r ∈ Finset.range 512, g (512 * j + r) :=
    fun j _ => (Finset.sum_range fun r => g (512 * j + r)).symm
  rw [Finset.sum_congr rfl h, sum_tiles_range g 16]
  exact Finset.sum_range g

/-- Against a factor that is not negative, multiplication distributes over the sum with one — at an infinite
    left factor too. -/
theorem mul_one_add {e g : EReal} (hg : 0 ≤ g) : e * (1 + g) = e + e * g := by
  rw [EReal.left_distrib_of_nonneg (by norm_num) hg, mul_one]

theorem exp_nonneg (z : EReal) : 0 ≤ Ideal.exp z := by
  induction z using EReal.rec with
  | bot => exact le_of_eq rfl
  | top => exact le_top
  | coe r => exact EReal.coe_nonneg.mpr (Real.exp_pos r).le

/-- A logistic value `1 / (1 + exp z)` is not negative, whatever the extended real `z`. -/
theorem logistic_nonneg (z : EReal) : 0 ≤ Ideal.div 1 (1 + Ideal.exp z) := by
  have hy : (0 : EReal) ≤ 1 + Ideal.exp z := add_nonneg (by norm_num) (exp_nonneg z)
  unfold Ideal.div
  split_ifs with h0 h1
  · exact le_top
  · exact absurd (by norm_num : (0 : EReal) < 1) h1
  · rw [one_mul]; exact EReal.inv_nonneg_of_nonneg hy

end Cert.VQ

end
-- ==== Proof.KI.Pay.lean ====
/-
  What each stored value of the two kernels holds at an index, on the extended reals.
-/
import proofs.«120395_j30193620091340_2_alg».proof.Proof.Gen.KernelIdeal.Skeleton
import proofs.«120395_j30193620091340_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Three layout operations at coordinates -/

section Layout
variable {α : Type}

/-- A `[1, b, c]` array broadcast to `[a, b, c]` reads, at `(k, r, d)`, the operand's one slab at `(r, d)`. -/
theorem broadcastTo_1bc_abc_apply {a b c : ℕ} (v : (⟨3, ![1, b, c]⟩ : Shape).Idx → α)
    (h : (⟨3, ![1, b, c]⟩ : Shape).Broadcasts ⟨3, ![a, b, c]⟩) (k : Fin a) (r : Fin b) (d : Fin c) :
    broadcastTo ⟨3, ![a, b, c]⟩ v h (ix3 k r d) = v (ix3 (0 : Fin 1) r d) := by
  refine broadcastTo_apply v h (ix3 k r d) (ix3 (0 : Fin 1) r d) fun ax => ?_
  match ax with
  | ⟨0, _⟩ => rfl
  | ⟨1, _⟩ =>
    show r.val = if b = 1 then 0 else r.val
    split
    · have := r.isLt; omega
    · rfl
  | ⟨2, _⟩ =>
    show d.val = if c = 1 then 0 else d.val
    split
    · have := d.isLt; omega
    · rfl

/-- An `[a, 1, c]` array broadcast to `[a, b, c]` reads, at `(k, r, d)`, the operand at `(k, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (k : Fin a) (r : Fin b) (d : Fin c) :
    broadcastTo ⟨3, ![a, b, c]⟩ v h (ix3 k r d) = v (ix3 k (0 : Fin 1) d) := by
  refine broadcastTo_apply v h (ix3 k r d) (ix3 k (0 : Fin 1) d) fun ax => ?_
  match ax with
  | ⟨0, _⟩ =>
    show k.val = if a = 1 then 0 else k.val
    split
    · have := k.isLt; omega
    · rfl
  | ⟨1, _⟩ => rfl
  | ⟨2, _⟩ =>
    show d.val = if c = 1 then 0 else d.val
    split
    · have := d.isLt; omega
    · rfl

/-- An `[a, b]` array cast to `[a, 1, b]` reads, at `(k, u, d)`, the operand at `(k, d)`. -/
theorem shapeCast_ab_a1b_apply {a b : ℕ} (x : (⟨2, ![a, b]⟩ : Shape).Idx → α)
    (h : (⟨2, ![a, b]⟩ : Shape).ShapeCasts ⟨3, ![a, 1, b]⟩) (k : Fin a) (u : Fin 1) (d : Fin b) :
    shapeCast ⟨3, ![a, 1, b]⟩ x h (ix3 k u d) = x (ix2 k d) :=
  shapeCast_apply x h _ _ (by
    have hu : u.val = 0 := by omega
    rw [Shape.rowMajor_val_three, Shape.rowMajor_val_two]
    show k.val * b + d.val = (k.val * 1 + u.val) * b + d.val
    rw [hu, Nat.mul_one, Nat.add_zero])

/-- The index a reduction along the leading axis of a rank-3 array inserts coordinate `k` into, at `(r, d)`, is `(k, r, d)`. -/
theorem lift3 (h : S32x512x64.Reduces [0] S512x64) (r : Fin 512) (d : Fin 64) (k : Fin 32) :
    h.lift (ix2 r d) k = ix3 k r d := by
  funext ax
  match ax with
  | ⟨0, _⟩ => exact Fin.ext rfl
  | ⟨1, _⟩ => exact Fin.ext rfl
  | ⟨2, _⟩ => exact Fin.ext rfl

/-- Likewise at rank 2: at `d`, coordinate `r` goes to `(r, d)`. -/
theorem lift2 (h : S512x64.Reduces [0] S64) (d : Fin 64) (r : Fin 512) :
    h.lift (ix1 d) r = ix2 r d := by
  funext ax
  match ax with
  | ⟨0, _⟩ => exact Fin.ext rfl
  | ⟨1, _⟩ => exact Fin.ext rfl

end Layout

/-! ## The cell's quantities as the kernel computes them, each read at an index -/

section Cell
variable (x0 : FVec Ideal S1x512x64 .f32) (x1 x2 : FVec Ideal S32x64 .f32)

/-- The residuals: feature less codeword entry, every codeword against every voxel. -/
def resid : FVec Ideal S32x512x64 .f32 :=
  subf (broadcastTo S32x512x64 (shapeCast S1x512x64 (shapeCast S512x64 x0 shapeCasts_S1x512x64_S512x64) shapeCasts_S512x64_S1x512x64)
      broadcasts_S1x512x64_S32x512x64)
    (broadcastTo S32x512x64 (shapeCast S32x1x64 x1 shapeCasts_S32x64_S32x1x64) broadcasts_S32x1x64_S32x512x64)

theorem resid_apply (k : Fin 32) (r : Fin 512) (d : Fin 64) :
    resid x0 x1 (ix3 k r d) = x0 (ix3 (0 : Fin 1) r d) - x1 (ix2 k d) := by
  unfold resid
  rw [subf_apply, broadcastTo_1bc_abc_apply, shapeCast_ab_1ab_apply, shapeCast_1ab_ab_apply, broadcastTo_a1c_abc_apply,
    shapeCast_ab_a1b_apply]

/-- The logits: scale times squared residual. -/
def logits : FVec Ideal S32x512x64 .f32 :=
  mulf (broadcastTo S32x512x64 (shapeCast S32x1x64 x2 shapeCasts_S32x64_S32x1x64) broadcasts_S32x1x64_S32x512x64)
    (mulf (resid x0 x1) (resid x0 x1))

theorem logits_apply (k : Fin 32) (r : Fin 512) (d : Fin 64) :
    logits x0 x1 x2 (ix3 k r d) = Cert.VQ.logit (x0 (ix3 (0 : Fin 1) r d)) (Cert.VQ.col x1 d) (Cert.VQ.col x2 d) k := by
  unfold logits
  rw [mulf_apply, mulf_apply, resid_apply, broadcastTo_a1c_abc_apply, shapeCast_ab_a1b_apply]
  rfl

/-- The largest logit of each cell, from the pattern of −∞. -/
def tops : FVec Ideal S512x64 .f32 :=
  maximumf (broadcast S512x64 (Scalar.ofBits .f32 0xFF800000#32))
    (multiReduction .maximumf [0] S512x64 (logits x0 x1 x2) 0xFF800000#32 reduces_S32x512x64_S512x64 (.inl rfl) rfl)

theorem tops_apply (r : Fin 512) (d : Fin 64) :
    tops x0 x1 x2 (ix2 r d) = Cert.VQ.top (x0 (ix3 (0 : Fin 1) r d)) (Cert.VQ.col x1 d) (Cert.VQ.col x2 d) := by
  unfold tops
  rw [maximumf_apply, broadcast_apply]
  refine congrArg (max Cert.VQ.negInf) ?_
  refine (Ideal.multiReduction_maximumf_single (logits x0 x1 x2) _ reduces_S32x512x64_S512x64 _ _ (ix2 r d)).trans ?_
  refine congrArg ((Finset.univ : Finset (Fin 32)).fold max Cert.VQ.negInf) (funext fun (k : Fin 32) => ?_)
  exact (congrArg (logits x0 x1 x2) (lift3 reduces_S32x512x64_S512x64 r d k)).trans (logits_apply x0 x1 x2 k r d)

/-- The unnormalised weights: the exponential of each logit less its cell's largest. -/
def wts : FVec Ideal S32x512x64 .f32 :=
  exp (subf (logits x0 x1 x2)
    (broadcastTo S32x512x64 (shapeCast S1x512x64 (tops x0 x1 x2) shapeCasts_S512x64_S1x512x64) broadcasts_S1x512x64_S32x512x64))

theorem wts_apply (k : Fin 32) (r : Fin 512) (d : Fin 64) :
    wts x0 x1 x2 (ix3 k r d) = Cert.VQ.wt (x0 (ix3 (0 : Fin 1) r d)) (Cert.VQ.col x1 d) (Cert.VQ.col x2 d) k := by
  show FloatOps.exp (subf (logits x0 x1 x2) _ (ix3 k r d)) = _
  rw [Ideal.exp_def, subf_apply, logits_apply, broadcastTo_1bc_abc_apply, shapeCast_ab_1ab_apply, tops_apply]
  rfl

/-- Their sum over the codewords. -/
def masses : FVec Ideal S512x64 .f32 :=
  multiReduction .add [0] S512x64 (wts x0 x1 x2) 0x00000000#32 reduces_S32x512x64_S512x64 (.inl rfl) rfl

theorem masses_apply (r : Fin 512) (d : Fin 64) :
    masses x0 x1 x2 (ix2 r d) = Cert.VQ.mass (x0 (ix3 (0 : Fin 1) r d)) (Cert.VQ.col x1 d) (Cert.VQ.col x2 d) := by
  unfold masses
  refine (Ideal.multiReduction_add_single (wts x0 x1 x2) _ reduces_S32x512x64_S512x64 _ _ (ix2 r d)).trans ?_
  show ∑ k : Fin 32, wts x0 x1 x2 (reduces_S32x512x64_S512x64.lift (ix2 r d) k) = _
  refine Finset.sum_congr rfl fun k _ => ?_
  exact (congrArg (wts x0 x1 x2) (lift3 reduces_S32x512x64_S512x64 r d k)).trans (wts_apply x0 x1 x2 k r d)

/-- Each codeword's share: normalised weight times residual. -/
def shares : FVec Ideal S32x512x64 .f32 :=
  mulf (divf (wts x0 x1 x2)
      (broadcastTo S32x512x64 (shapeCast S1x512x64 (masses x0 x1 x2) shapeCasts_S512x64_S1x512x64) broadcasts_S1x512x64_S32x512x64))
    (resid x0 x1)

theorem shares_apply (k : Fin 32) (r : Fin 512) (d : Fin 64) :
    shares x0 x1 x2 (ix3 k r d) = Cert.VQ.contrib (x0 (ix3 (0 : Fin 1) r d)) (Cert.VQ.col x1 d) (Cert.VQ.col x2 d) k := by
  unfold shares
  rw [mulf_apply, divf_apply, wts_apply, broadcastTo_1bc_abc_apply, shapeCast_ab_1ab_apply, masses_apply, resid_apply]
  rfl

/-- The payload is the sum of the shares over the codewords. -/
theorem pay4_eq : k0_pay4 (F := Ideal) x0 x1 x2
    = multiReduction .add [0] S512x64 (shares x0 x1 x2) 0x00000000#32 reduces_S32x512x64_S512x64 (.inl rfl) rfl := rfl

end Cell

theorem pay4_apply (x0 : FVec Ideal S1x512x64 .f32) (x1 x2 : FVec Ideal S32x64 .f32) (r : Fin 512) (d : Fin 64) :
    k0_pay4 (F := Ideal) x0 x1 x2 (ix2 r d) = Cert.VQ.cellE (x0 (ix3 (0 : Fin 1) r d)) (Cert.VQ.col x1 d) (Cert.VQ.col x2 d) := by
  rw [pay4_eq]
  refine (Ideal.multiReduction_add_single (shares x0 x1 x2) _ reduces_S32x512x64_S512x64 _ _ (ix2 r d)).trans ?_
  show ∑ k : Fin 32, shares x0 x1 x2 (reduces_S32x512x64_S512x64.lift (ix2 r d) k) = _
  refine Finset.sum_congr rfl fun k _ => ?_
  exact (congrArg (shares x0 x1 x2) (lift3 reduces_S32x512x64_S512x64 r d k)).trans (shares_apply x0 x1 x2 k r d)

theorem pay5_apply (x0 : FVec Ideal S1x512x64 .f32) (x1 x2 : FVec Ideal S32x64 .f32) (r : Fin 512) (d : Fin 64) :
    k0_pay5 (F := Ideal) x0 x1 x2 (ix3 (0 : Fin 1) r d) = Cert.VQ.cellE (x0 (ix3 (0 : Fin 1) r d)) (Cert.VQ.col x1 d) (Cert.VQ.col x2 d) := by
  unfold k0_pay5
  refine (shapeCast_ab_1ab_apply _ _ _ _ _).trans ?_
  exact pay4_apply x0 x1 x2 r d

theorem step_apply (x0 : FVec Ideal S1x512x64 .f32) (x1 x2 : FVec Ideal S32x64 .f32) (a : FVec Ideal S1x64 .f32) (d : Fin 64) :
    k0_pay1 (F := Ideal) (k0_pay6 (F := Ideal) x0 x1 x2 a) (ix2 (0 : Fin 1) d)
      = a (ix2 (0 : Fin 1) d) + ∑ r : Fin 512, Cert.VQ.cellE (x0 (ix3 (0 : Fin 1) r d)) (Cert.VQ.col x1 d) (Cert.VQ.col x2 d) := by
  unfold k0_pay1 k0_pay6
  rw [shapeCast_self, addf_apply, shapeCast_a_1a_apply]
  refine congrArg (a (ix2 (0 : Fin 1) d) + ·) ?_
  refine (Ideal.multiReduction_add_single (k0_pay4 (F := Ideal) x0 x1 x2) _ reduces_S512x64_S64 _ _ (ix1 d)).trans ?_
  show ∑ r : Fin 512, k0_pay4 (F := Ideal) x0 x1 x2 (reduces_S512x64_S64.lift (ix1 d) r) = _
  refine Finset.sum_congr rfl fun r _ => ?_
  exact (congrArg (k0_pay4 (F := Ideal) x0 x1 x2) (lift2 reduces_S512x64_S64 d r)).trans (pay4_apply x0 x1 x2 r d)

theorem gated_apply (x0 : FVec Ideal S1x2048x64 .f32) (x1 : FVec Ideal S1x1x64 .f32) (r : Fin 2048) (d : Fin 64) :
    k1_pay1 (F := Ideal) x0 x1 (ix3 (0 : Fin 1) r d)
      = max (x0 (ix3 (0 : Fin 1) r d) * (Cert.VQ.onePat + x1 (ix3 (0 : Fin 1) (0 : Fin 1) d))) Cert.VQ.zeroPat := by
  unfold k1_pay1
  refine (shapeCast_ab_1ab_apply _ _ _ _ _).trans ?_
  rw [maximumf_apply, mulf_apply, broadcast_apply, shapeCast_1ab_ab_apply, broadcastTo_1b_ab_apply, addf_apply,
    broadcast_apply, shapeCast_1ab_ab_apply]
  rfl

theorem pay3_apply (d : Fin 64) : k0_pay3 (F := Ideal) (ix2 (0 : Fin 1) d) = Cert.VQ.zeroPat := by
  unfold k0_pay3
  rw [shapeCast_self]
  rfl

theorem pay2_apply (a : FVec Ideal S1x64 .f32) (d : Fin 64) : k0_pay2 (F := Ideal) a (ix3 (0 : Fin 1) (0 : Fin 1) d) = a (ix2 (0 : Fin 1) d) := by
  unfold k0_pay2
  exact shapeCast_ab_1ab_apply _ _ _ _ _

end Cert.KernelIdeal.Pay

end
-- ==== Proof.KI.Acc.lean ====
/-
  The first launch's accumulator, after a batch's last voxel tile, holds per channel the batch's aggregate summed over its
  8192 voxels: each input block read through its window is a slab of its array, and sixteen tiles of 512 voxels are the batch.
-/
import proofs.«120395_j30193620091340_2_alg».proof.Proof.KI.Reg0Defs
import proofs.«120395_j30193620091340_2_alg».proof.Proof.KI.Pay
import proofs.«120395_j30193620091340_2_alg».proof.Proof.Spec
import Idealize.ShloMosaic.Lib.Pipeline.Value
import Idealize.ShloMosaic.Lib.ValueIdx

set_option maxRecDepth 16384

noncomputable section

namespace Cert.KernelIdeal.Acc

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The input blocks read at an index -/

/-- The feature window's block index at a grid point: the batch, the voxel tile, the one channel block. -/
theorem idx_facts0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)

/-- The two table windows' block index is zero at every grid point: their block is the whole table. -/
theorem idx_facts1 : ∀ t : Fin cfg0.N, win0_1.index t 0 = 0 ∧ win0_1.index t 1 = 0 :=
  (by decide +kernel : ∀ t : Fin grid0.N, win0_1.index t 0 = 0 ∧ win0_1.index t 1 = 0)
theorem idx_facts2 : ∀ t : Fin cfg0.N, win0_2.index t 0 = 0 ∧ win0_2.index t 1 = 0 :=
  (by decide +kernel : ∀ t : Fin grid0.N, win0_2.index t 0 = 0 ∧ win0_2.index t 1 = 0)

/-- The feature block at the point of batch `b` and tile `j`, at voxel `r` of the tile and channel `d`, is the feature
    array at batch `b`, voxel `512 j + r`, channel `d`. -/
theorem iblk0_apply (c : Dev nD) (t : Fin cfg0.N) (b : Fin 4) (j : ℕ) (hj : j < 16) (ht : t.val = 16 * b.val + j)
    (r : Fin 512) (d : Fin 64) :
    R0.iblk V c 0 t (ix3 (0 : Fin 1) r d) = V c main_v1 (ix3 b ⟨512 * j + r.val, by omega⟩ d) := by
  obtain ⟨h0, h1, h2⟩ := idx_facts0 t
  unfold R0.iblk
  rw [View.read_apply]
  show V c main_v1 _ = V c main_v1 _
  congr 1
  funext a
  apply Fin.ext
  match a with
  | ⟨0, _⟩ => show win0_0.index t 0 * 1 + 1 * 0 = b.val; rw [h0]; omega
  | ⟨1, _⟩ => show win0_0.index t 1 * 512 + 1 * r.val = 512 * j + r.val; rw [h1]; omega
  | ⟨2, _⟩ => show win0_0.index t 2 * 64 + 1 * d.val = d.val; rw [h2]; omega

/-- The codeword table's block at any point is the whole table. -/
theorem iblk1_apply (c : Dev nD) (t : Fin cfg0.N) (k : Fin 32) (d : Fin 64) :
    R0.iblk V c 1 t (ix2 k d) = V c main_arg1 (ix2 k d) := by
  obtain ⟨h0, h1⟩ := idx_facts1 t
  unfold R0.iblk
  rw [View.read_apply]
  show V c main_arg1 _ = V c main_arg1 _
  congr 1
  funext a
  apply Fin.ext
  match a with
  | ⟨0, _⟩ => show win0_1.index t 0 * 32 + 1 * k.val = k.val; rw [h0]; omega
  | ⟨1, _⟩ => show win0_1.index t 1 * 64 + 1 * d.val = d.val; rw [h1]; omega

/-- The scale table's block at any point is the whole table. -/
theorem iblk2_apply (c : Dev nD) (t : Fin cfg0.N) (k : Fin 32) (d : Fin 64) :
    R0.iblk V c 2 t (ix2 k d) = V c main_arg2 (ix2 k d) := by
  obtain ⟨h0, h1⟩ := idx_facts2 t
  unfold R0.iblk
  rw [View.read_apply]
  show V c main_arg2 _ = V c main_arg2 _
  congr 1
  funext a
  apply Fin.ext
  match a with
  | ⟨0, _⟩ => show win0_2.index t 0 * 32 + 1 * k.val = k.val; rw [h0]; omega
  | ⟨1, _⟩ => show win0_2.index t 1 * 64 + 1 * d.val = d.val; rw [h1]; omega

theorem iblk1_eq (c : Dev nD) (t : Fin cfg0.N) :
    (R0.iblk V c 1 t : FVec Ideal S32x64 .f32) = (V c main_arg1 : FVec Ideal S32x64 .f32) := by
  funext i
  rw [eq_ix2 i]
  exact iblk1_apply V c t _ _

theorem iblk2_eq (c : Dev nD) (t : Fin cfg0.N) :
    (R0.iblk V c 2 t : FVec Ideal S32x64 .f32) = (V c main_arg2 : FVec Ideal S32x64 .f32) := by
  funext i
  rw [eq_ix2 i]
  exact iblk2_apply V c t _ _

/-! ## The accumulator after each tile of a batch -/

/-- The aggregate of batch `b` at channel `d`, as a function of the voxel's number (zero past the last voxel). -/
def cellAt (c : Dev nD) (b : Fin 4) (d : Fin 64) (n : ℕ) : EReal :=
  if h : n < 8192 then Cert.VQ.Earr (V c main_v1) (V c main_arg1) (V c main_arg2) (ix3 b ⟨n, h⟩ d) else 0

/-- One tile's aggregate summed over its 512 voxels, as the body reads it from the blocks, is the sum of the array's
    aggregate over those voxels. -/
theorem tile_sum (c : Dev nD) (t : Fin cfg0.N) (b : Fin 4) (j : ℕ) (hj : j < 16) (ht : t.val = 16 * b.val + j) (d : Fin 64) :
    ∑ r : Fin 512, Cert.VQ.cellE (R0.iblk V c 0 t (ix3 (0 : Fin 1) r d)) (Cert.VQ.col (R0.iblk V c 1 t) d) (Cert.VQ.col (R0.iblk V c 2 t) d)
      = ∑ r : Fin 512, cellAt V c b d (512 * j + r.val) := by
  have e1 : Cert.VQ.col (R0.iblk V c 1 t) d = Cert.VQ.col (V c main_arg1) d := funext fun k => iblk1_apply V c t k d
  have e2 : Cert.VQ.col (R0.iblk V c 2 t) d = Cert.VQ.col (V c main_arg2) d := funext fun k => iblk2_apply V c t k d
  refine Finset.sum_congr rfl fun r _ => ?_
  rw [e1, e2, iblk0_apply V c t b j hj ht r d]
  unfold cellAt
  rw [dif_pos (by have := r.isLt; omega), Cert.VQ.Earr_ix]

/-- The accumulator at two equal positions is one accumulator. -/
theorem accAt_congr (c : Dev nD) {n m : ℕ} (e : n = m) (hn : n < cfg0.N) (hm : m < cfg0.N) :
    R0.accAt V c n hn = R0.accAt V c m hm := by
  subst e; rfl

/-- After tile `j` of batch `b` the accumulator holds, per channel, the zero pattern plus the tiles' sums so far. -/
theorem acc_tile (c : Dev nD) (b : Fin 4) (d : Fin 64) (j : ℕ) : ∀ (hj : j < 16) (h : 16 * b.val + j < cfg0.N),
    R0.accAt V c (16 * b.val + j) h (ix2 (0 : Fin 1) d)
      = Cert.VQ.zeroPat + ∑ j' ∈ Finset.range (j + 1), ∑ r : Fin 512, cellAt V c b d (512 * j' + r.val) := by
  induction j with
  | zero =>
    intro hj h
    have hf := R0.accAt_first V c ⟨16 * b.val + 0, h⟩ (by show (16 * b.val + 0) % 16 = 0; omega)
    refine (congrFun hf _).trans ?_
    unfold R0.step
    refine (Pay.step_apply _ _ _ _ d).trans ?_
    rw [Pay.pay3_apply, Finset.sum_range_one, tile_sum V c ⟨16 * b.val + 0, h⟩ b 0 hj rfl d]
  | succ j ih =>
    intro hj h
    have h' : 16 * b.val + j < cfg0.N := by omega
    have hl := R0.accAt_later V c ⟨16 * b.val + (j + 1), h⟩ (by show ¬(16 * b.val + (j + 1)) % 16 = 0; omega)
    refine (congrFun hl _).trans ?_
    unfold R0.step
    refine (Pay.step_apply _ _ _ _ d).trans ?_
    rw [tile_sum V c ⟨16 * b.val + (j + 1), h⟩ b (j + 1) hj rfl d,
      accAt_congr V c (show 16 * b.val + (j + 1) - 1 = 16 * b.val + j by omega) _ h', ih (by omega) h',
      Finset.sum_range_succ _ (j + 1), add_assoc]

/-- After a batch's last voxel tile the accumulator holds, per channel, the batch's aggregate summed over its voxels. -/
theorem acc_last (c : Dev nD) (b : Fin 4) (d : Fin 64) (h : 16 * b.val + 15 < cfg0.N) :
    R0.accAt V c (16 * b.val + 15) h (ix2 (0 : Fin 1) d)
      = Cert.VQ.Gsum (Cert.VQ.Earr (V c main_v1) (V c main_arg1) (V c main_arg2)) b d := by
  rw [acc_tile V c b d 15 (by omega) h, Cert.VQ.zeroPat_eq, zero_add, Cert.VQ.sum_tiles (cellAt V c b d)]
  unfold Cert.VQ.Gsum
  refine Finset.sum_congr rfl fun n _ => ?_
  unfold cellAt
  rw [dif_pos n.isLt]

end Cert.KernelIdeal.Acc

end
-- ==== Proof.KI.Arr0.lean ====
/-
  What the first launch leaves in its two result arrays, as whole-array functions of the arrays the launch is entered from.
-/
import proofs.«120395_j30193620091340_2_alg».proof.Proof.KI.Reg0Defs
import proofs.«120395_j30193620091340_2_alg».proof.Proof.KI.Pay
import proofs.«120395_j30193620091340_2_alg».proof.Proof.KI.Acc
import proofs.«120395_j30193620091340_2_alg».proof.Proof.Spec
import Idealize.ShloMosaic.Lib.Pipeline.Value
import Idealize.ShloMosaic.Lib.ValueIdx

set_option maxRecDepth 16384

noncomputable section

namespace Cert.KernelIdeal.Arr0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where each window's block sits at grid point `t`: the feature and tile-output blocks at (batch, tile, 0), the
    tables at the origin, the per-batch output at (batch, 0, 0). -/
theorem idx_feat : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)
theorem idx_tbl1 : ∀ t : Fin cfg0.N, win0_1.index t (0 : Fin 2) = 0 ∧ win0_1.index t (1 : Fin 2) = 0 :=
  (by decide +kernel : ∀ t : Fin grid0.N, _)
theorem idx_tbl2 : ∀ t : Fin cfg0.N, win0_2.index t (0 : Fin 2) = 0 ∧ win0_2.index t (1 : Fin 2) = 0 :=
  (by decide +kernel : ∀ t : Fin grid0.N, _)
theorem idx_tile : ∀ t : Fin cfg0.N, win0_3.index t (0 : Fin 3) = t.val / 16 ∧ win0_3.index t (1 : Fin 3) = t.val % 16
    ∧ win0_3.index t (2 : Fin 3) = 0 :=
  (by decide +kernel : ∀ t : Fin grid0.N, _)
theorem idx_batch : ∀ t : Fin cfg0.N, win0_4.index t (0 : Fin 3) = t.val / 16 ∧ win0_4.index t (1 : Fin 3) = 0
    ∧ win0_4.index t (2 : Fin 3) = 0 :=
  (by decide +kernel : ∀ t : Fin grid0.N, _)

/-- The feature block at point `16·b + j` reads the features at batch `b`, voxel `512·j + r`. -/
theorem feat_blk (c : Dev nD) (t : Fin cfg0.N) (b : Fin 4) (j : Fin 16) (ht : t.val = 16 * b.val + j.val)
    (r : Fin 512) (d : Fin 64) :
    R0.iblk V c 0 t (ix3 (0 : Fin 1) r d)
      = V c main_v1 (ix3 b (⟨512 * j.val + r.val, by have := j.isLt; have := r.isLt; omega⟩ : Fin 8192) d) := by
  obtain ⟨e0, e1, e2⟩ := idx_feat t
  unfold R0.iblk
  rw [View.read_apply]
  show V c main_v1 _ = V c main_v1 _
  congr 1
  funext a
  apply Fin.ext
  match a with
  | ⟨0, _⟩ => show win0_0.index t (0 : Fin 3) * 1 + 1 * (0 : Nat) = b.val; rw [e0]; have := j.isLt; omega
  | ⟨1, _⟩ => show win0_0.index t (1 : Fin 3) * 512 + 1 * r.val = 512 * j.val + r.val; rw [e1]; have := j.isLt; omega
  | ⟨2, _⟩ => show win0_0.index t (2 : Fin 3) * 64 + 1 * d.val = d.val; rw [e2]; omega

/-- A table's block is the whole table, at every point. -/
theorem tbl1_blk (c : Dev nD) (t : Fin cfg0.N) : (R0.iblk V c 1 t : S32x64.Idx → Elt Ideal .f32) = V c main_arg1 := by
  obtain ⟨e0, e1⟩ := idx_tbl1 t
  funext y
  unfold R0.iblk
  rw [View.read_apply]
  show V c main_arg1 _ = V c main_arg1 _
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 64 + 1 * (y 1).val = (y 1).val; rw [e1]; omega
theorem tbl2_blk (c : Dev nD) (t : Fin cfg0.N) : (R0.iblk V c 2 t : S32x64.Idx → Elt Ideal .f32) = V c main_arg2 := by
  obtain ⟨e0, e1⟩ := idx_tbl2 t
  funext y
  unfold R0.iblk
  rw [View.read_apply]
  show V c main_arg2 _ = V c main_arg2 _
  congr 1
  funext a
  apply Fin.ext
  match a with
  | ⟨0, _⟩ => show win0_2.index t (0 : Fin 2) * 32 + 1 * (y 0).val = (y 0).val; rw [e0]; omega
  | ⟨1, _⟩ => show win0_2.index t (1 : Fin 2) * 64 + 1 * (y 1).val = (y 1).val; rw [e1]; omega

/-- An index of a one-voxel-slab tile block is (0, voxel, channel). -/
theorem split_tile (y : S1x512x64.Idx) : y = ix3 (0 : Fin 1) (y 1) (y 2) := by
  funext a
  match a with
  | ⟨0, _⟩ => exact Fin.ext (by have h : (y 0).val < 1 := (y 0).isLt; show (y 0).val = 0; omega)
  | ⟨1, _⟩ => rfl
  | ⟨2, _⟩ => rfl

/-- What point `t` writes back into the tile output is its block of the aggregate array: the cell aggregate of each
    voxel of tile `t % 16` of batch `t / 16`, which is where the block sits in the array. -/
theorem flushed_E (c : Dev nD) (t : Fin cfg0.N) :
    (R0.dat V c).flushed 3 t
      = ((cfg0.win 3).blk t).view.read (Elt Ideal) (Cert.VQ.Earr (V c main_v1) (V c main_arg1) (V c main_arg2)) := by
  have hlt : t.val < 64 := Nat.lt_of_lt_of_eq t.isLt N_0
  have hb : t.val / 16 < 4 := by omega
  have hj : t.val % 16 < 16 := by omega
  obtain ⟨e0, e1, e2⟩ := idx_tile t
  show (cfg0.win 3).cut (grid0.coords t) ((R0.dat V c).after 3 t) = _
  rw [R0.after_3]
  funext y
  obtain ⟨r, d, rfl⟩ : ∃ (r : Fin 512) (d : Fin 64), y = ix3 (0 : Fin 1) r d := ⟨y 1, y 2, split_tile y⟩
  show k0_pay5 (R0.iblk V c 0 t) (R0.iblk V c 1 t) (R0.iblk V c 2 t) (ix3 (0 : Fin 1) r d) = _
  refine (Pay.pay5_apply (R0.iblk V c 0 t) (R0.iblk V c 1 t) (R0.iblk V c 2 t) r d).trans ?_
  rw [feat_blk V c t ⟨t.val / 16, hb⟩ ⟨t.val % 16, hj⟩ (by show t.val = 16 * (t.val / 16) + t.val % 16; omega) r d,
    tbl1_blk V c t, tbl2_blk V c t]
  have hemb : ((cfg0.win 3).blk t).view.emb (ix3 (0 : Fin 1) r d)
      = ix3 (⟨t.val / 16, hb⟩ : Fin 4) (⟨512 * (t.val % 16) + r.val, by have := r.isLt; omega⟩ : Fin 8192) d := by
    funext a
    apply Fin.ext
    match a with
    | ⟨0, _⟩ => show win0_3.index t (0 : Fin 3) * 1 + 1 * (0 : Nat) = t.val / 16; rw [e0]; omega
    | ⟨1, _⟩ => show win0_3.index t (1 : Fin 3) * 512 + 1 * r.val = 512 * (t.val % 16) + r.val; rw [e1]; omega
    | ⟨2, _⟩ => show win0_3.index t (2 : Fin 3) * 64 + 1 * d.val = d.val; rw [e2]; omega
  rw [View.read_apply]
  show _ = Cert.VQ.Earr (V c main_v1) (V c main_arg1) (V c main_arg2) (((cfg0.win 3).blk t).view.emb (ix3 (0 : Fin 1) r d))
  rw [hemb, Cert.VQ.Earr_ix]

/-- An index of the tile output's array is in point `t`'s block iff each coordinate is in the block's range. -/
theorem mem_tile (t : Fin cfg0.N) (i : S4x8192x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v2_0).slice (win0_3.rect t)).set ↔ _
  rw [View.set_slice_whole, Rect.mem_set_unit]
  exact Iff.rfl

/-- Voxel `n` of batch `b` lies in the block of point `16·b + n / 512`. -/
theorem cover_E (i : S4x8192x64.Idx) :
    ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 64 := (i 2).isLt
  have hlt : 16 * (i 0).val + (i 1).val / 512 < cfg0.N := Nat.lt_of_lt_of_eq (by omega : _ < 64) N_0.symm
  refine ⟨⟨16 * (i 0).val + (i 1).val / 512, hlt⟩, flush0_3 _, ?_⟩
  rw [mem_tile]
  obtain ⟨e0, e1, e2⟩ := idx_tile ⟨16 * (i 0).val + (i 1).val / 512, hlt⟩
  have f0 : win0_3.index ⟨16 * (i 0).val + (i 1).val / 512, hlt⟩ (0 : Fin 3) = (16 * (i 0).val + (i 1).val / 512) / 16 := e0
  have f1 : win0_3.index ⟨16 * (i 0).val + (i 1).val / 512, hlt⟩ (1 : Fin 3) = (16 * (i 0).val + (i 1).val / 512) % 16 := e1
  intro a
  match a with
  | ⟨0, _⟩ =>
    show win0_3.index ⟨16 * (i 0).val + (i 1).val / 512, hlt⟩ (0 : Fin 3) * 1 ≤ (i 0).val
      ∧ (i 0).val < win0_3.index ⟨16 * (i 0).val + (i 1).val / 512, hlt⟩ (0 : Fin 3) * 1 + 1
    rw [f0]; omega
  | ⟨1, _⟩ =>
    show win0_3.index ⟨16 * (i 0).val + (i 1).val / 512, hlt⟩ (1 : Fin 3) * 512 ≤ (i 1).val
      ∧ (i 1).val < win0_3.index ⟨16 * (i 0).val + (i 1).val / 512, hlt⟩ (1 : Fin 3) * 512 + 512
    rw [f1]; omega
  | ⟨2, _⟩ =>
    show win0_3.index ⟨16 * (i 0).val + (i 1).val / 512, hlt⟩ (2 : Fin 3) * 64 ≤ (i 2).val
      ∧ (i 2).val < win0_3.index ⟨16 * (i 0).val + (i 1).val / 512, hlt⟩ (2 : Fin 3) * 64 + 64
    rw [e2]; omega

/-- The tile output's array ends as the aggregate of every voxel and channel. -/
theorem final_E (c : Dev nD) :
    (R0.dat V c).arrAt 3 cfg0.N = Cert.VQ.Earr (V c main_v1) (V c main_arg1) (V c main_arg2) :=
  (R0.dat V c).arrAt_eq_of_cover 3 (Cert.VQ.Earr (V c main_v1) (V c main_arg1) (V c main_arg2))
    (fun t _ => flushed_E V c t) cover_E

/-- An index of a per-batch output block is (0, 0, channel). -/
theorem split_row (y : S1x1x64.Idx) : y = ix3 (0 : Fin 1) (0 : Fin 1) (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- The per-batch sums as one array: at (batch, 0, channel) the batch's aggregate summed over its voxels. -/
def Garr (c : Dev nD) : S4x1x64.Idx → Elt Ideal .f32 :=
  fun i => Cert.VQ.Gsum (Cert.VQ.Earr (V c main_v1) (V c main_arg1) (V c main_arg2))
    (⟨(i 0).val, (i 0).isLt⟩ : Fin 4) (⟨(i 2).val, (i 2).isLt⟩ : Fin 64)

theorem Garr_ix (c : Dev nD) (b : Fin 4) (u : Fin 1) (d : Fin 64) :
    Garr V c (ix3 b u d) = Cert.VQ.Gsum (Cert.VQ.Earr (V c main_v1) (V c main_arg1) (V c main_arg2)) b d := rfl

/-- The accumulator after a point does not depend on how the point's number is written. -/
theorem accAt_congr (c : Dev nD) (n n' : ℕ) (h : n < cfg0.N) (h' : n' < cfg0.N) (e : n = n') :
    R0.accAt V c n h = R0.accAt V c n' h' := by
  subst e; rfl

/-- A batch's last tile writes back the accumulator, which by then holds the batch's sums: its block of `Garr`. -/
theorem flushed_G (c : Dev nD) (t : Fin cfg0.N) (hf : (cfg0.win 4).flush t = true) :
    (R0.dat V c).flushed 4 t = ((cfg0.win 4).blk t).view.read (Elt Ideal) (Garr V c) := by
  have hlt : t.val < 64 := Nat.lt_of_lt_of_eq t.isLt N_0
  have h15 : t.val % 16 = 15 := (flush0_4 t).mp hf
  have hb : t.val / 16 < 4 := by omega
  obtain ⟨e0, e1, e2⟩ := idx_batch t
  show (cfg0.win 4).cut (grid0.coords t) ((R0.dat V c).after 4 t) = _
  rw [R0.after_4]
  funext y
  obtain ⟨d, rfl⟩ : ∃ d : Fin 64, y = ix3 (0 : Fin 1) (0 : Fin 1) d := ⟨y 2, split_row y⟩
  show k0_pay2 (R0.accAt V c t.val t.isLt) (ix3 (0 : Fin 1) (0 : Fin 1) d) = _
  refine (Pay.pay2_apply (R0.accAt V c t.val t.isLt) d).trans ?_
  have hl : 16 * (⟨t.val / 16, hb⟩ : Fin 4).val + 15 < cfg0.N := Nat.lt_of_lt_of_eq (by show 16 * (t.val / 16) + 15 < 64; omega) N_0.symm
  rw [accAt_congr V c t.val (16 * (⟨t.val / 16, hb⟩ : Fin 4).val + 15) t.isLt hl (by show t.val = 16 * (t.val / 16) + 15; omega)]
  refine (Acc.acc_last V c ⟨t.val / 16, hb⟩ d hl).trans ?_
  have hemb : ((cfg0.win 4).blk t).view.emb (ix3 (0 : Fin 1) (0 : Fin 1) d)
      = ix3 (⟨t.val / 16, hb⟩ : Fin 4) (0 : Fin 1) d := by
    funext a
    apply Fin.ext
    match a with
    | ⟨0, _⟩ => show win0_4.index t (0 : Fin 3) * 1 + 1 * (0 : Nat) = t.val / 16; rw [e0]; omega
    | ⟨1, _⟩ => show win0_4.index t (1 : Fin 3) * 1 + 1 * (0 : Nat) = 0; rw [e1]
    | ⟨2, _⟩ => show win0_4.index t (2 : Fin 3) * 64 + 1 * d.val = d.val; rw [e2]; omega
  rw [View.read_apply]
  show _ = Garr V c (((cfg0.win 4).blk t).view.emb (ix3 (0 : Fin 1) (0 : Fin 1) d))
  rw [hemb, Garr_ix]

/-- An index of the per-batch output's array is in point `t`'s block iff each coordinate is in the block's range. -/
theorem mem_row (t : Fin cfg0.N) (i : S4x1x64.Idx) :
    i ∈ ((cfg0.win 4).blk t).view.set ↔ ∀ a : Fin 3, win0_4.index t a * S1x1x64.size a ≤ (i a).val
      ∧ (i a).val < win0_4.index t a * S1x1x64.size a + S1x1x64.size a := by
  show i ∈ ((View.whole main_v2_1).slice (win0_4.rect t)).set ↔ _
  rw [View.set_slice_whole, Rect.mem_set_unit]
  exact Iff.rfl

/-- Batch `b`'s row lies in the block of the batch's last point, `16·b + 15`, which writes it back. -/
theorem cover_G (i : S4x1x64.Idx) :
    ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 64 := (i 2).isLt
  have hlt : 16 * (i 0).val + 15 < cfg0.N := Nat.lt_of_lt_of_eq (by omega : _ < 64) N_0.symm
  refine ⟨⟨16 * (i 0).val + 15, hlt⟩, (flush0_4 _).mpr (by show (16 * (i 0).val + 15) % 16 = 15; omega), ?_⟩
  rw [mem_row]
  obtain ⟨e0, e1, e2⟩ := idx_batch ⟨16 * (i 0).val + 15, hlt⟩
  have f0 : win0_4.index ⟨16 * (i 0).val + 15, hlt⟩ (0 : Fin 3) = (16 * (i 0).val + 15) / 16 := e0
  intro a
  match a with
  | ⟨0, _⟩ =>
    show win0_4.index ⟨16 * (i 0).val + 15, hlt⟩ (0 : Fin 3) * 1 ≤ (i 0).val
      ∧ (i 0).val < win0_4.index ⟨16 * (i 0).val + 15, hlt⟩ (0 : Fin 3) * 1 + 1
    rw [f0]; omega
  | ⟨1, _⟩ =>
    show win0_4.index ⟨16 * (i 0).val + 15, hlt⟩ (1 : Fin 3) * 1 ≤ (i 1).val
      ∧ (i 1).val < win0_4.index ⟨16 * (i 0).val + 15, hlt⟩ (1 : Fin 3) * 1 + 1
    rw [e1]; omega
  | ⟨2, _⟩ =>
    show win0_4.index ⟨16 * (i 0).val + 15, hlt⟩ (2 : Fin 3) * 64 ≤ (i 2).val
      ∧ (i 2).val < win0_4.index ⟨16 * (i 0).val + 15, hlt⟩ (2 : Fin 3) * 64 + 64
    rw [e2]; omega

/-- The per-batch output's array ends as the per-batch sums. -/
theorem final_Garr (c : Dev nD) : (R0.dat V c).arrAt 4 cfg0.N = Garr V c :=
  (R0.dat V c).arrAt_eq_of_cover 4 (Garr V c) (fun t hf => flushed_G V c t hf) cover_G

/-- The per-batch output's array ends, at batch `b` and channel `d`, as the aggregate summed over the batch's voxels. -/
theorem final_G (c : Dev nD) (b : Fin 4) (d : Fin 64) :
    (R0.dat V c).arrAt 4 cfg0.N (ix3 b (0 : Fin 1) d)
      = Cert.VQ.Gsum (Cert.VQ.Earr (V c main_v1) (V c main_arg1) (V c main_arg2)) b d :=
  (congrFun (final_Garr V c) (ix3 b (0 : Fin 1) d)).trans (Garr_ix V c b 0 d)

end Cert.KernelIdeal.Arr0

end
-- ==== Proof.KI.Arr1.lean ====
/-
  What the second launch leaves in its result array, as whole-array functions of the arrays the launch is entered from.
-/
import proofs.«120395_j30193620091340_2_alg».proof.Proof.KI.Reg1Defs
import proofs.«120395_j30193620091340_2_alg».proof.Proof.KI.Pay
import proofs.«120395_j30193620091340_2_alg».proof.Proof.Spec
import Idealize.ShloMosaic.Lib.Pipeline.Value
import Idealize.ShloMosaic.Lib.ValueIdx

set_option maxRecDepth 16384

noncomputable section

namespace Cert.KernelIdeal.Arr1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps of the three windows, decided once over the sixteen grid points: the aggregate's tile moves
    with the output's, the gate's row follows the batch, and the output's tile at point `t` is tile `t % 4` of batch `t / 4`. -/
theorem idx_facts : ∀ t : Fin cfg1.N,
    win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = 0
    ∧ win1_1.index t (2 : Fin 3) = 0
    ∧ win1_2.index t (0 : Fin 3) = t.val / 4
    ∧ win1_2.index t (1 : Fin 3) = t.val % 4
    ∧ win1_2.index t (2 : Fin 3) = 0 :=
  (by decide +kernel : ∀ t : Fin grid1.N, _)

/-- The claimed contents of the whole output array: at every index the rectified product of the aggregate there with one
    plus the gate of the index's batch and channel. -/
def G (c : Dev nD) : S4x8192x64.Idx → EReal := fun i =>
  Cert.VQ.gated (V c main_v2_0 i) (V c main_v17 (ix3 (⟨(i 0).val, (i 0).isLt⟩ : Fin 4) (0 : Fin 1) (⟨(i 2).val, (i 2).isLt⟩ : Fin 64)))

/-- What grid point `t` writes back is its block of the claimed contents: the stored value at a block coordinate is the
    rectified gated product of the two input blocks there, the aggregate's block sits where the output's does, and the
    gate's one row is the row of the block's batch. -/
theorem flushed_eq (c : Dev nD) (t : Fin cfg1.N) :
    (R1.dat V c).flushed 2 t = ((cfg1.win 2).blk t).view.read (Elt Ideal) (G V c) := by
  show (cfg1.win 2).cut (grid1.coords t) ((R1.dat V c).after 2 t) = _
  rw [R1.after_2]
  obtain ⟨e00, e01, e02, e10, e11, e12, e20, e21, e22⟩ := idx_facts t
  funext y
  rw [View.read_apply]
  have hy0 : (y 0).val < 1 := (y 0).isLt
  have hy1 : (y 1).val < 2048 := (y 1).isLt
  have hy2 : (y 2).val < 64 := (y 2).isLt
  have hx : (cfg1.win 2).xinj (grid1.coords t) y = ix3 (0 : Fin 1) (⟨(y 1).val, hy1⟩ : Fin 2048) (⟨(y 2).val, hy2⟩ : Fin 64) := by
    funext a
    match a with
    | ⟨0, _⟩ => exact Fin.ext (by show (y 0).val = 0; omega)
    | ⟨1, _⟩ => exact Fin.ext rfl
    | ⟨2, _⟩ => exact Fin.ext rfl
  show k1_pay1 (F := Ideal) (R1.iblk V c 0 t) (R1.iblk V c 1 t) ((cfg1.win 2).xinj (grid1.coords t) y)
    = G V c (((cfg1.win 2).blk t).view.emb y)
  refine (congrArg (k1_pay1 (F := Ideal) (R1.iblk V c 0 t) (R1.iblk V c 1 t)) hx).trans ?_
  refine (Pay.gated_apply (R1.iblk V c 0 t) (R1.iblk V c 1 t) _ _).trans ?_
  have h0 : R1.iblk V c 0 t (ix3 (0 : Fin 1) (⟨(y 1).val, hy1⟩ : Fin 2048) (⟨(y 2).val, hy2⟩ : Fin 64))
      = V c main_v2_0 (((cfg1.win 2).blk t).view.emb y) := by
    unfold R1.iblk
    rw [View.read_apply]
    show V c main_v2_0 (((cfg1.win 0).blk t).view.emb (ix3 (0 : Fin 1) (⟨(y 1).val, hy1⟩ : Fin 2048) (⟨(y 2).val, hy2⟩ : Fin 64)))
      = V c main_v2_0 (((cfg1.win 2).blk t).view.emb y)
    refine congrArg (V c main_v2_0) ?_
    funext a
    apply Fin.ext
    match a with
    | ⟨0, _⟩ => show win1_0.index t (0 : Fin 3) * 1 + 1 * 0 = win1_2.index t (0 : Fin 3) * 1 + 1 * (y 0).val; omega
    | ⟨1, _⟩ => show win1_0.index t (1 : Fin 3) * 2048 + 1 * (y 1).val = win1_2.index t (1 : Fin 3) * 2048 + 1 * (y 1).val; omega
    | ⟨2, _⟩ => show win1_0.index t (2 : Fin 3) * 64 + 1 * (y 2).val = win1_2.index t (2 : Fin 3) * 64 + 1 * (y 2).val; omega
  have h1 : R1.iblk V c 1 t (ix3 (0 : Fin 1) (0 : Fin 1) (⟨(y 2).val, hy2⟩ : Fin 64))
      = V c main_v17 (ix3 (⟨((((cfg1.win 2).blk t).view.emb y) 0).val, ((((cfg1.win 2).blk t).view.emb y) 0).isLt⟩ : Fin 4) (0 : Fin 1)
          (⟨((((cfg1.win 2).blk t).view.emb y) 2).val, ((((cfg1.win 2).blk t).view.emb y) 2).isLt⟩ : Fin 64)) := by
    unfold R1.iblk
    rw [View.read_apply]
    show V c main_v17 (((cfg1.win 1).blk t).view.emb (ix3 (0 : Fin 1) (0 : Fin 1) (⟨(y 2).val, hy2⟩ : Fin 64))) = _
    refine congrArg (V c main_v17) ?_
    funext a
    apply Fin.ext
    match a with
    | ⟨0, _⟩ => show win1_1.index t (0 : Fin 3) * 1 + 1 * 0 = win1_2.index t (0 : Fin 3) * 1 + 1 * (y 0).val; omega
    | ⟨1, _⟩ => show win1_1.index t (1 : Fin 3) * 1 + 1 * 0 = 0; omega
    | ⟨2, _⟩ => show win1_1.index t (2 : Fin 3) * 64 + 1 * (y 2).val = win1_2.index t (2 : Fin 3) * 64 + 1 * (y 2).val; omega
  rw [h0, h1]
  rfl

/-- An index of the output array is in point `t`'s block iff each coordinate is in the block's range on its axis. -/
theorem mem_blk (t : Fin cfg1.N) (i : S4x8192x64.Idx) :
    i ∈ ((cfg1.win 2).blk t).view.set ↔ ∀ a : Fin 3, win1_2.index t a * S1x2048x64.size a ≤ (i a).val ∧ (i a).val < win1_2.index t a * S1x2048x64.size a + S1x2048x64.size a := by
  show i ∈ ((View.whole main_v18).slice (win1_2.rect t)).set ↔ _
  rw [View.set_slice_whole, Rect.mem_set_unit]
  exact Iff.rfl

/-- Every index of the output array lies in the block of the point of its batch and its voxel's tile. -/
theorem cover (i : S4x8192x64.Idx) : ∃ t : Fin cfg1.N, (cfg1.win 2).flush t = true ∧ i ∈ ((cfg1.win 2).blk t).view.set := by
  have hi0 : (i 0).val < 4 := (i 0).isLt
  have hi1 : (i 1).val < 8192 := (i 1).isLt
  have hi2 : (i 2).val < 64 := (i 2).isLt
  have hN : cfg1.N = 16 := N_1
  let t : Fin cfg1.N := ⟨4 * (i 0).val + (i 1).val / 2048, by rw [hN]; omega⟩
  obtain ⟨e00, e01, e02, e10, e11, e12, e20, e21, e22⟩ := idx_facts t
  have ht : t.val = 4 * (i 0).val + (i 1).val / 2048 := rfl
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 2048 ≤ (i 1).val ∧ (i 1).val < win1_2.index t (1 : Fin 3) * 2048 + 2048; omega
  | ⟨2, _⟩ => show win1_2.index t (2 : Fin 3) * 64 ≤ (i 2).val ∧ (i 2).val < win1_2.index t (2 : Fin 3) * 64 + 64; omega

/-- So the output array ends as the claimed contents. -/
theorem final (c : Dev nD) : (R1.dat V c).arrAt 2 cfg1.N = G V c :=
  (R1.dat V c).arrAt_eq_of_cover 2 (G V c) (fun t _ => flushed_eq V c t) cover

/-- The output array ends, at batch `b`, voxel `n`, channel `d`, as the rectified product of the aggregate there with
    one plus the batch's gate at the channel. -/
theorem final_O (c : Dev nD) (b : Fin 4) (n : Fin 8192) (d : Fin 64) :
    (R1.dat V c).arrAt 2 cfg1.N (ix3 b n d)
      = Cert.VQ.gated (V c main_v2_0 (ix3 b n d)) (V c main_v17 (ix3 b (0 : Fin 1) d)) :=
  congrFun (final V c) (ix3 b n d)

end Cert.KernelIdeal.Arr1

end
-- ==== Proof.RefValue.lean ====
/-
  The reference program's stages read against the cell mathematics: its aggregate array is the array of cell
  aggregates of the re-laid features; its per-batch mean's numerator is the aggregate summed over a batch's voxels
  (the reference sums over voxels first and codewords second: one double sum); its gate is one fixed function of that
  sum and the two gate parameters, a logistic value, hence not negative; and its result at an index is the
  rectified sum of the re-laid aggregate and its product with the gate.
-/
import proofs.«120395_j30193620091340_2_alg».proof.Proof.Gen.ReferenceIdeal.Read
import proofs.«120395_j30193620091340_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The gate as the host computes it from the per-batch sum `s`: the mean over the 32 codewords, the linear layer
    with weights `x3` (transposed) and bias `x4`, the logistic function written as `1 / (1 + exp (−·))`. -/
def gate (s : (⟨S4x64, .f32⟩ : BufTy).Contents (Elt F)) (x3 : (⟨S64x64, .f32⟩ : BufTy).Contents (Elt F))
    (x4 : (⟨S64, .f32⟩ : BufTy).Contents (Elt F)) : (⟨S4x64, .f32⟩ : BufTy).Contents (Elt F) :=
  Host.divf (broadcastInDim S4x64 ![] bcast_S_S4x64 (constant (F := F) S_ .f32 0x3F800000#32))
    (addf (broadcastInDim S4x64 ![] bcast_S_S4x64 (constant (F := F) S_ .f32 0x3F800000#32))
      (Host.exp (Host.negf (addf
        (Host.dotGeneral dot_S4x64_S64x64_S4x64_1_0_0_1_n_n none
          (Host.divf s (broadcastInDim S4x64 ![] bcast_S_S4x64 (constant (F := F) S_ .f32 0x42000000#32)))
          (transpose S64x64 [1, 0] x3 transposes_S64x64_S64x64_1_0))
        (broadcastInDim S4x64 ![0, 1] bcast_S1x64_S4x64_0_1 (broadcastInDim S1x64 ![1] bcast_S64_S1x64_1 x4))))))

variable (x0 : (⟨S4x64x8x32x32, .f32⟩ : BufTy).Contents (Elt Ideal)) (x1 x2 : (⟨S32x64, .f32⟩ : BufTy).Contents (Elt Ideal))
  (x3 : (⟨S64x64, .f32⟩ : BufTy).Contents (Elt Ideal)) (x4 : (⟨S64, .f32⟩ : BufTy).Contents (Elt Ideal))

/-! ## Where the layout stages read, at an index given by its coordinates

Each broadcast or reduction reads its operand at an index computed from the result's; at an index written by its
coordinates (batch `b`, voxel `n`, codeword `k`, channel `d`) the composed index is again one written by coordinates. -/

theorem at_feature (b : Fin 4) (n : Fin 8192) (k : Fin 32) (d : Fin 64) :
    idx_main_v2 (idx_main_v4 (ix4 b n k d)) = ix3 b n d := by
  funext a; match a with | ⟨0, _⟩ => rfl | ⟨1, _⟩ => rfl | ⟨2, _⟩ => rfl

theorem at_codeword (b : Fin 4) (n : Fin 8192) (k : Fin 32) (d : Fin 64) :
    idx_main_v3 (idx_main_v5 (ix4 b n k d)) = ix2 k d := by
  funext a; match a with | ⟨0, _⟩ => rfl | ⟨1, _⟩ => rfl

theorem at_scale (b : Fin 4) (n : Fin 8192) (k : Fin 32) (d : Fin 64) :
    idx_main_v7 (idx_main_v9 (ix4 b n k d)) = ix2 k d := by
  funext a; match a with | ⟨0, _⟩ => rfl | ⟨1, _⟩ => rfl

theorem at_top (b : Fin 4) (n : Fin 8192) (k : Fin 32) (d : Fin 64) :
    idx_main_v14 (idx_main_v15 (ix4 b n k d)) = ix3 b n d := by
  funext a; match a with | ⟨0, _⟩ => rfl | ⟨1, _⟩ => rfl | ⟨2, _⟩ => rfl

theorem at_mass (b : Fin 4) (n : Fin 8192) (k : Fin 32) (d : Fin 64) :
    idx_main_v19 (idx_main_v20 (ix4 b n k d)) = ix3 b n d := by
  funext a; match a with | ⟨0, _⟩ => rfl | ⟨1, _⟩ => rfl | ⟨2, _⟩ => rfl

theorem at_weight (b : Fin 4) (n : Fin 8192) (d : Fin 64) (k : Fin 32) :
    idx_main_v18 (ix3 b n d) k = ix4 b n k d := by
  funext a; match a with | ⟨0, _⟩ => rfl | ⟨1, _⟩ => rfl | ⟨2, _⟩ => rfl | ⟨3, _⟩ => rfl

theorem at_share (b : Fin 4) (n : Fin 8192) (d : Fin 64) (k : Fin 32) :
    idx_main_v38 (ix3 b n d) k = ix4 b n k d := by
  funext a; match a with | ⟨0, _⟩ => rfl | ⟨1, _⟩ => rfl | ⟨2, _⟩ => rfl | ⟨3, _⟩ => rfl

theorem at_voxel (b : Fin 4) (k : Fin 32) (d : Fin 64) (n : Fin 8192) :
    idx_main_v23 (ix3 b k d) n = ix4 b n k d := by
  funext a; match a with | ⟨0, _⟩ => rfl | ⟨1, _⟩ => rfl | ⟨2, _⟩ => rfl | ⟨3, _⟩ => rfl

theorem at_batch (b : Fin 4) (d : Fin 64) (k : Fin 32) :
    idx_main_v24 (ix2 b d) k = ix3 b k d := by
  funext a; match a with | ⟨0, _⟩ => rfl | ⟨1, _⟩ => rfl | ⟨2, _⟩ => rfl

/-- The index over (b, n, d) with codeword coordinate `k` put back on the reduced axis is (b, n, k, d). -/
theorem lift_codeword (h : S4x8192x32x64.Reduces [2] S4x8192x64) (b : Fin 4) (n : Fin 8192) (d : Fin 64)
    (k : Fin (S4x8192x32x64.size 2)) : h.lift (ix3 b n d) k = ix4 b n (⟨k.val, k.isLt⟩ : Fin 32) d := by
  funext c; apply Fin.ext
  fin_cases c <;> rfl

/-! ## One cell, stage by stage -/

/-- The residual of voxel (b, n), channel `d`, to codeword `k`. -/
theorem resid_at (b : Fin 4) (n : Fin 8192) (k : Fin 32) (d : Fin 64) :
    val_main_v6 (F := Ideal) x0 x1 (ix4 b n k d) = val_main_v1 (F := Ideal) x0 (ix3 b n d) - x1 (ix2 k d) := by
  rw [val_main_v6_apply, val_main_v4_apply, val_main_v2_apply, val_main_v5_apply, val_main_v3_apply, at_feature, at_codeword]
  rfl

/-- The scaled squared residual is the cell's logit. -/
theorem logit_at (b : Fin 4) (n : Fin 8192) (k : Fin 32) (d : Fin 64) :
    val_main_v10 (F := Ideal) x0 x1 x2 (ix4 b n k d)
      = Cert.VQ.logit (val_main_v1 (F := Ideal) x0 (ix3 b n d)) (Cert.VQ.col x1 d) (Cert.VQ.col x2 d) k := by
  rw [val_main_v10_apply, val_main_v9_apply, val_main_v7_apply, val_main_v8_apply, resid_at, at_scale]
  rfl

/-- The maximum over the codeword axis, started from −∞ and then compared with −∞ once more, is the cell's largest logit. -/
theorem top_at (b : Fin 4) (n : Fin 8192) (d : Fin 64) :
    val_main_v13 (F := Ideal) x0 x1 x2 (ix3 b n d)
      = Cert.VQ.top (val_main_v1 (F := Ideal) x0 (ix3 b n d)) (Cert.VQ.col x1 d) (Cert.VQ.col x2 d) := by
  have hr : S4x8192x32x64.Reduces [2] S4x8192x64 := by decide
  have hfold := Host.reduce_eq_fold_single (α := Ideal .f32) (u := S_) (FloatOps.maximumf (F := Ideal) (φ := .f32))
    (val_main_v10 (F := Ideal) x0 x1 x2 : S4x8192x32x64.Idx → Ideal .f32) (val_main_cst (F := Ideal) : S_.Idx → Ideal .f32)
    reducesTo_S4x8192x32x64_S4x8192x64_d2 hr h_S_ (ix3 b n d)
  rw [val_main_v13_apply, val_main_v12_apply, val_main_cst_0_apply]
  unfold val_main_v11
  have hf : (val_main_v10 (F := Ideal) x0 x1 x2 ∘ hr.lift (ix3 b n d))
      = fun k : Fin 32 => Cert.VQ.logit (val_main_v1 (F := Ideal) x0 (ix3 b n d)) (Cert.VQ.col x1 d) (Cert.VQ.col x2 d) k :=
    funext fun k => (congrArg (val_main_v10 (F := Ideal) x0 x1 x2) (lift_codeword hr b n d k)).trans (logit_at x0 x1 x2 b n _ d)
  unfold Cert.VQ.top
  refine (congrArg (max Cert.VQ.negInf) hfold).trans ?_
  exact congrArg (fun f => max Cert.VQ.negInf (Finset.fold max Cert.VQ.negInf f (Finset.univ : Finset (Fin 32)))) hf

/-- The exponential of the logit less the largest is the cell's unnormalised weight. -/
theorem wt_at (b : Fin 4) (n : Fin 8192) (k : Fin 32) (d : Fin 64) :
    val_main_v17 (F := Ideal) x0 x1 x2 (ix4 b n k d)
      = Cert.VQ.wt (val_main_v1 (F := Ideal) x0 (ix3 b n d)) (Cert.VQ.col x1 d) (Cert.VQ.col x2 d) k := by
  rw [val_main_v17_apply, val_main_v16_apply, val_main_v15_apply, val_main_v14_apply, at_top, top_at, logit_at]
  rfl

/-- The weights summed over the codewords (from the zero pattern, which is 0) are the cell's mass. -/
theorem mass_at (b : Fin 4) (n : Fin 8192) (d : Fin 64) :
    val_main_v18 (F := Ideal) x0 x1 x2 (ix3 b n d)
      = Cert.VQ.mass (val_main_v1 (F := Ideal) x0 (ix3 b n d)) (Cert.VQ.col x1 d) (Cert.VQ.col x2 d) := by
  have h0 : val_main_cst_1 (F := Ideal) (Shape.Idx.first h_S_) = 0 := Cert.VQ.zeroPat_eq
  rw [val_main_v18_apply, h0, zero_add]
  unfold Cert.VQ.mass
  exact Finset.sum_congr rfl fun k _ =>
    (congrArg (val_main_v17 (F := Ideal) x0 x1 x2) (at_weight b n d k)).trans (wt_at x0 x1 x2 b n k d)

/-- The normalised weight times the residual is codeword `k`'s share of the cell's aggregate. -/
theorem contrib_at (b : Fin 4) (n : Fin 8192) (k : Fin 32) (d : Fin 64) :
    val_main_v22 (F := Ideal) x0 x1 x2 (ix4 b n k d)
      = Cert.VQ.contrib (val_main_v1 (F := Ideal) x0 (ix3 b n d)) (Cert.VQ.col x1 d) (Cert.VQ.col x2 d) k := by
  rw [val_main_v22_apply, val_main_v21_apply, val_main_v20_apply, val_main_v19_apply, at_mass, mass_at, wt_at, resid_at]
  rfl

/-! ## The arrays -/

theorem ref_E : val_main_v38 (F := Ideal) x0 x1 x2 = Cert.VQ.Earr (val_main_v1 (F := Ideal) x0) x1 x2 := by
  funext i
  obtain ⟨b, n, d, rfl⟩ : ∃ (b : Fin 4) (n : Fin 8192) (d : Fin 64), i = ix3 b n d := ⟨i 0, i 1, i 2, eq_ix3 i⟩
  have h0 : val_main_cst_7 (F := Ideal) (Shape.Idx.first h_S_) = 0 := Cert.VQ.zeroPat_eq
  rw [val_main_v38_apply, h0, zero_add, Cert.VQ.Earr_ix]
  unfold Cert.VQ.cellE
  exact Finset.sum_congr rfl fun k _ =>
    (congrArg (val_main_v22 (F := Ideal) x0 x1 x2) (at_share b n d k)).trans (contrib_at x0 x1 x2 b n k d)

theorem ref_G (b : Fin 4) (d : Fin 64) :
    val_main_v24 (F := Ideal) x0 x1 x2 (ix2 b d) = Cert.VQ.Gsum (Cert.VQ.Earr (val_main_v1 (F := Ideal) x0) x1 x2) b d := by
  have hk : ∀ k : Fin 32, val_main_v23 (F := Ideal) x0 x1 x2 (idx_main_v24 (ix2 b d) k)
      = Cert.VQ.zeroPat + ∑ n : Fin 8192,
          Cert.VQ.contrib (val_main_v1 (F := Ideal) x0 (ix3 b n d)) (Cert.VQ.col x1 d) (Cert.VQ.col x2 d) k := by
    intro k
    rw [at_batch, val_main_v23_apply]
    refine congrArg (Cert.VQ.zeroPat + ·) (Finset.sum_congr rfl fun n _ => ?_)
    exact (congrArg (val_main_v22 (F := Ideal) x0 x1 x2) (at_voxel b k d n)).trans (contrib_at x0 x1 x2 b n k d)
  rw [val_main_v24_apply]
  refine (congrArg (Cert.VQ.zeroPat + ·) (Finset.sum_congr rfl fun k _ => hk k)).trans ?_
  rw [Cert.VQ.sum_exchange (fun (n : Fin 8192) (k : Fin 32) =>
    Cert.VQ.contrib (val_main_v1 (F := Ideal) x0 (ix3 b n d)) (Cert.VQ.col x1 d) (Cert.VQ.col x2 d) k)]
  unfold Cert.VQ.Gsum
  exact Finset.sum_congr rfl fun n _ => (Cert.VQ.Earr_ix (val_main_v1 (F := Ideal) x0) x1 x2 b n d).symm

/-! ## The gate and the result -/

theorem ref_gate : val_main_v37 (F := Ideal) x0 x1 x2 x3 x4 = gate (F := Ideal) (val_main_v24 (F := Ideal) x0 x1 x2) x3 x4 := by
  unfold val_main_v37 val_main_v36 val_main_v35 val_main_v34 val_main_v33 val_main_v32 val_main_v31 val_main_v30 val_main_v29
    val_main_v28 val_main_v27 val_main_v26 val_main_v25 val_main_cst_6 val_main_cst_5 val_main_cst_4 gate
  rfl

/-- A quotient of an array `A` by `A` plus an exponential is, wherever `A` is 1, a logistic value. -/
theorem logistic_form_nonneg (A Z : FVec Ideal S4x64 .f32) (i : S4x64.Idx) (hA : A i = Cert.VQ.onePat) :
    (0 : EReal) ≤ Host.divf (F := Ideal) A (addf (F := Ideal) A (Host.exp (F := Ideal) Z)) i := by
  show (0 : EReal) ≤ Ideal.div (A i) (A i + Ideal.exp (Z i))
  rw [hA, Cert.VQ.onePat_eq]
  exact Cert.VQ.logistic_nonneg _

theorem gate_nonneg (s : (⟨S4x64, .f32⟩ : BufTy).Contents (Elt Ideal)) (i : S4x64.Idx) : (0 : EReal) ≤ gate (F := Ideal) s x3 x4 i := by
  unfold gate
  refine logistic_form_nonneg _ _ i ?_
  exact broadcastInDim_apply _ bcast_S_S4x64 (constant (F := Ideal) S_ .f32 0x3F800000#32) i (fun a => a.elim0) (fun a => a.elim0)

theorem ref_out (i : S4x64x8x32x32.Idx) :
    val_main_v45 (F := Ideal) x0 x1 x2 x3 x4 i
      = max (val_main_v38 (F := Ideal) x0 x1 x2 (idx_main_v39 (idx_main_v40 i))
          + val_main_v38 (F := Ideal) x0 x1 x2 (idx_main_v39 (idx_main_v40 i))
            * val_main_v37 (F := Ideal) x0 x1 x2 x3 x4 (ix2 (⟨(i 0).val, (i 0).isLt⟩ : Fin 4) (⟨(i 1).val, (i 1).isLt⟩ : Fin 64)))
        Cert.VQ.zeroPat := by
  have hi : idx_main_v41 (idx_main_v42 i) = ix2 (⟨(i 0).val, (i 0).isLt⟩ : Fin 4) (⟨(i 1).val, (i 1).isLt⟩ : Fin 64) := by
    funext a; match a with | ⟨0, _⟩ => rfl | ⟨1, _⟩ => rfl
  rw [val_main_v45_apply, val_main_v44_apply, val_main_v43_apply, val_main_v42_apply, val_main_v41_apply, val_main_v40_apply,
    val_main_v39_apply, val_main_call0_v0_apply, val_main_call0_cst_apply, hi]
  rfl

end Cert.ReferenceIdeal.RefValue

end
-- ==== Proof.Bridge.lean ====
/-
  The two programs compute one function. The first program's result, read off its run, is the re-laid array of
  rectified products `e · (1 + g)` — `e` the aggregate of a voxel and channel, `g` the batch's gate at the channel —;
  the reference's is the rectified `e + e · g` of the re-laid aggregate. The aggregates agree cell by cell (both are
  the cell mathematics of the features, which both programs re-lay by the same two operations); the per-batch sums
  agree because a double sum over voxels and codewords does not depend on the order; the gates are then the same
  function of equal sums; and `e · (1 + g) = e + e · g` on the extended reals because a gate, a logistic value, is
  never negative.
-/
import proofs.«120395_j30193620091340_2_alg».proof.Proof.KI.Host
import proofs.«120395_j30193620091340_2_alg».proof.Proof.KI.Arr0
import proofs.«120395_j30193620091340_2_alg».proof.Proof.KI.Arr1
import proofs.«120395_j30193620091340_2_alg».proof.Proof.RefValue
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.Whole Cert.KernelIdeal.HostVals
open Idealize.ShloMosaic Idealize.ShloMosaic.TcCoe Idealize.ShloMosaic.ValueIdx Idealize.SL.Sem

/-- An `[a, 1, b]` array cast to `[a, b]` reads, at `(k, d)`, the operand at `(k, 0, d)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (k : Fin a) (d : Fin b) :
    shapeCast ⟨2, ![a, b]⟩ x h (ix2 k d) = x (ix3 k (0 : Fin 1) d) :=
  shapeCast_apply x h _ _ (by
    rw [Shape.rowMajor_val_three, Shape.rowMajor_val_two]
    show (k.val * 1 + 0) * b + d.val = k.val * b + d.val
    rw [Nat.mul_one, Nat.add_zero])

/-- An `[a, b]` array cast to `[a, 1, b]` reads, at `(k, 0, d)`, the operand at `(k, d)`. -/
theorem shapeCast_ab_a1b_apply {α : Type} {a b : ℕ} (x : (⟨2, ![a, b]⟩ : Shape).Idx → α)
    (h : (⟨2, ![a, b]⟩ : Shape).ShapeCasts ⟨3, ![a, 1, b]⟩) (k : Fin a) (d : Fin b) :
    shapeCast ⟨3, ![a, 1, b]⟩ x h (ix3 k (0 : Fin 1) d) = x (ix2 k d) :=
  shapeCast_apply x h _ _ (by
    rw [Shape.rowMajor_val_three, Shape.rowMajor_val_two]
    show k.val * b + d.val = (k.val * 1 + 0) * b + d.val
    rw [Nat.mul_one, Nat.add_zero])

/-- The re-laying of a (batch, voxel, channel) array into (batch, channel, 8, 32, 32): at an index it reads the
    array at the batch, the voxel the three spatial coordinates number, and the channel. -/
theorem relay_apply {α : Type} (y : S4x8192x64.Idx → α) (i : S4x64x8x32x32.Idx) :
    shapeCast S4x64x8x32x32 (transpose S4x64x8192 [0, 2, 1] y transposes_S4x8192x64_S4x64x8192_0_2_1)
        shapeCasts_S4x64x8192_S4x64x8x32x32 i
      = y (Cert.ReferenceIdeal.Read.idx_main_v39 (Cert.ReferenceIdeal.Read.idx_main_v40 i)) := by
  have h0 : (i 0).val < 4 := (i 0).isLt
  have h1 : (i 1).val < 64 := (i 1).isLt
  have h2 : (i 2).val < 8 := (i 2).isLt
  have h3 : (i 3).val < 32 := (i 3).isLt
  have h4 : (i 4).val < 32 := (i 4).isLt
  rw [shapeCast_apply _ shapeCasts_S4x64x8192_S4x64x8x32x32 i (Cert.ReferenceIdeal.Read.idx_main_v40 i) (by
    rw [Shape.rowMajor_val_three, Shape.rowMajor_val_five]
    show ((((((i 0).val * 64 + (i 1).val) * 8 + (i 2).val) * 32 + (i 3).val) * 32 + (i 4).val) / 524288 * 64
        + (((((i 0).val * 64 + (i 1).val) * 8 + (i 2).val) * 32 + (i 3).val) * 32 + (i 4).val) / 8192 % 64) * 8192
        + (((((i 0).val * 64 + (i 1).val) * 8 + (i 2).val) * 32 + (i 3).val) * 32 + (i 4).val) % 8192
      = ((((i 0).val * 64 + (i 1).val) * 8 + (i 2).val) * 32 + (i 3).val) * 32 + (i 4).val
    omega)]
  exact transpose_apply [0, 2, 1] y transposes_S4x8192x64_S4x64x8192_0_2_1 (Cert.ReferenceIdeal.Read.idx_main_v40 i)
    (Cert.ReferenceIdeal.Read.idx_main_v39 (Cert.ReferenceIdeal.Read.idx_main_v40 i)) (fun b => match b with
      | ⟨0, _⟩ => rfl
      | ⟨1, _⟩ => rfl
      | ⟨2, _⟩ => rfl)

/-- That voxel index keeps the batch and the channel. -/
theorem relay_idx (i : S4x64x8x32x32.Idx) :
    ∃ n : Fin 8192, Cert.ReferenceIdeal.Read.idx_main_v39 (Cert.ReferenceIdeal.Read.idx_main_v40 i)
      = ix3 (⟨(i 0).val, (i 0).isLt⟩ : Fin 4) n (⟨(i 1).val, (i 1).isLt⟩ : Fin 64) := by
  have h0 : (i 0).val < 4 := (i 0).isLt
  have h1 : (i 1).val < 64 := (i 1).isLt
  have h2 : (i 2).val < 8 := (i 2).isLt
  have h3 : (i 3).val < 32 := (i 3).isLt
  have h4 : (i 4).val < 32 := (i 4).isLt
  refine ⟨(Cert.ReferenceIdeal.Read.idx_main_v39 (Cert.ReferenceIdeal.Read.idx_main_v40 i)) 1, funext fun a => Fin.ext ?_⟩
  match a with
  | ⟨0, _⟩ =>
    show (((((i 0).val * 64 + (i 1).val) * 8 + (i 2).val) * 32 + (i 3).val) * 32 + (i 4).val) / 524288 = (i 0).val
    omega
  | ⟨1, _⟩ => rfl
  | ⟨2, _⟩ =>
    show (((((i 0).val * 64 + (i 1).val) * 8 + (i 2).val) * 32 + (i 3).val) * 32 + (i 4).val) / 8192 % 64 = (i 1).val
    omega

variable (m : (ℓ : Loc nD τ sig) → Buf (Elt Ideal) ℓ) (ρ : Dev nD → PrngReg)

/-- The features the first launch is entered with are the reference's re-laid features. -/
theorem feat_eq (c : Dev nD) :
    V1 m ρ c main_v1 = Cert.ReferenceIdeal.Read.val_main_v1 (F := Ideal) (m ((c : Thread nD τ).loc main_arg0)) :=
  (V1_feat m ρ c).trans rfl

/-- The aggregate array the second launch is entered with is the reference's. -/
theorem aggr_eq (c : Dev nD) :
    V3 m ρ c main_v2_0 = Cert.ReferenceIdeal.Read.val_main_v38 (F := Ideal) (m ((c : Thread nD τ).loc main_arg0))
      (m ((c : Thread nD τ).loc main_arg1)) (m ((c : Thread nD τ).loc main_arg2)) := by
  rw [V3_E, Arr0.final_E, feat_eq, V1_arg1, V1_arg2, Cert.ReferenceIdeal.RefValue.ref_E]

/-- The per-batch sums the host reads off the first launch are the reference's. -/
theorem sums_eq (c : Dev nD) :
    shapeCast S4x64 ((R0.dat (V1 m ρ) c).arrAt 4 cfg0.N) shapeCasts_S4x1x64_S4x64
      = Cert.ReferenceIdeal.Read.val_main_v24 (F := Ideal) (m ((c : Thread nD τ).loc main_arg0))
          (m ((c : Thread nD τ).loc main_arg1)) (m ((c : Thread nD τ).loc main_arg2)) := by
  funext i
  obtain ⟨b, d, rfl⟩ : ∃ (b : Fin 4) (d : Fin 64), i = ix2 b d := ⟨i 0, i 1, eq_ix2 i⟩
  rw [Cert.ReferenceIdeal.RefValue.ref_G]
  refine (shapeCast_a1b_ab_apply _ shapeCasts_S4x1x64_S4x64 b d).trans ?_
  rw [Arr0.final_G, feat_eq, V1_arg1, V1_arg2]

/-- The two programs' gate functions are one function. -/
theorem gate_fn_eq (s : (⟨S4x64, .f32⟩ : BufTy).Contents (Elt Ideal)) (x3 : (⟨S64x64, .f32⟩ : BufTy).Contents (Elt Ideal))
    (x4 : (⟨S64, .f32⟩ : BufTy).Contents (Elt Ideal)) :
    HostVals.gate (F := Ideal) s x3 x4 = Cert.ReferenceIdeal.RefValue.gate (F := Ideal) s x3 x4 := rfl

/-- So the gate the second launch is entered with, at batch `b` and channel `d`, is the reference's. -/
theorem gate_eq (c : Dev nD) (b : Fin 4) (d : Fin 64) :
    V3 m ρ c main_v17 (ix3 b (0 : Fin 1) d)
      = Cert.ReferenceIdeal.Read.val_main_v37 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) (ix2 b d) := by
  rw [V3_gate, sums_eq, gate_fn_eq, ← Cert.ReferenceIdeal.RefValue.ref_gate]
  exact shapeCast_ab_a1b_apply _ shapeCasts_S4x64_S4x1x64 b d

/-- THE RESULT: what the first program leaves in its result buffer is the reference's last stage. -/
theorem result_eq (c : Dev nD) :
    W5 m ρ c (Proc.devRef .tc main_v20)
      = Cert.ReferenceIdeal.Read.val_main_v45 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  rw [W5_out]
  funext i
  rw [relay_apply, Cert.ReferenceIdeal.RefValue.ref_out]
  obtain ⟨n, hn⟩ := relay_idx i
  rw [hn, Arr1.final_O, aggr_eq, gate_eq]
  have hg := Cert.ReferenceIdeal.RefValue.gate_nonneg (m ((c : Thread nD τ).loc main_arg3)) (m ((c : Thread nD τ).loc main_arg4))
    (Cert.ReferenceIdeal.Read.val_main_v24 (F := Ideal) (m ((c : Thread nD τ).loc main_arg0))
      (m ((c : Thread nD τ).loc main_arg1)) (m ((c : Thread nD τ).loc main_arg2)))
    (ix2 (⟨(i 0).val, (i 0).isLt⟩ : Fin 4) (⟨(i 1).val, (i 1).isLt⟩ : Fin 64))
  rw [← Cert.ReferenceIdeal.RefValue.ref_gate] at hg
  unfold Cert.VQ.gated
  rw [Cert.VQ.onePat_eq, Cert.VQ.mul_one_add hg]

end Cert.KernelIdeal.Bridge

end
-- ==== Proof.lean ====
/-
  The certificate of the soft codebook assignment with a global gate: a two-launch Pallas program against its plain
  jnp reference.

  Both programs re-lay the features (batch, channel, 8, 32, 32) as (batch, voxel, channel); for every voxel and
  channel form the softmax, over 32 codewords, of scale times squared residual, and aggregate the softmax-weighted
  residuals; sum the aggregate over a batch's voxels, divide by 32, pass it through a 64 × 64 linear layer and a
  logistic function to a gate per batch and channel; and return the rectified gated aggregate, re-laid back.
  The first program tiles the voxels: its first launch walks a 4 × 16 grid of 512-voxel tiles, writes each tile's
  aggregate and carries a per-batch running sum in a scratch row that it resets at a batch's first tile and emits at
  its last; its second launch walks a 4 × 4 grid of 2048-voxel tiles and writes `max (e · (1 + g)) 0`.
  The reference sums over voxels before codewords and writes `max (e + e · g) 0`.

  The frames: each program runs to the end from any memory, faults nowhere, and leaves its arguments as they were —
  for the two-launch program by running both launches' pipelines (every grid point's body obligation, the scratch
  row's contents carried through the first launch's invariant), for the reference by its straight-line run.
  The idealization rewrote nothing. On the extended reals the two results are equal index by index: the cell
  aggregates are one function of the same re-laid features; a double sum does not depend on its order; the gates are
  one function of equal sums; and `e · (1 + g) = e + e · g` because a logistic value is never negative.
-/
import proofs.«120395_j30193620091340_2_alg».proof.Defs
import proofs.«120395_j30193620091340_2_alg».proof.Proof.Gen.Kernel
import proofs.«120395_j30193620091340_2_alg».proof.Proof.Gen.KernelIdeal
import proofs.«120395_j30193620091340_2_alg».proof.Proof.Gen.ReferenceIdeal
import proofs.«120395_j30193620091340_2_alg».proof.Proof.Gen.Pre_finite_inputs
import proofs.«120395_j30193620091340_2_alg».proof.Proof.K.Run
import proofs.«120395_j30193620091340_2_alg».proof.Proof.KI.Run
import proofs.«120395_j30193620091340_2_alg».proof.Proof.Bridge
import proofs.«120395_j30193620091340_2_alg».proof.Proof.Gen.ReferenceIdeal.Run
import proofs.«120395_j30193620091340_2_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The two-launch program at the word level runs and keeps its arguments. -/
theorem frame_k : Cert.frame_Kernel := fun m ρ _ => Cert.Kernel.Whole.frame (F := Bits) m ρ

/-- So does its reading on the extended reals. -/
theorem frame_ki : Cert.frame_KernelIdeal := fun m ρ _ => Cert.KernelIdeal.Whole.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, both programs end with the same result. -/
theorem algebraic : Cert.algebraic_KernelIdeal_ReferenceIdeal := by
  intro m ρ m' ρ' _ hagree
  refine ⟨fun c => Cert.KernelIdeal.Whole.W5 m ρ c (Proc.devRef .tc Cert.KernelIdeal.main_v20), ?_, ?_⟩
  · refine (θ_run Cert.KernelIdeal.defs _ _).mono (fun r h c => ⟨?_, ?_, ?_, ?_, ?_, ?_⟩) (Cert.KernelIdeal.Whole.run_all (F := Ideal) m ρ)
    · exact h c _ (Cert.KernelIdeal.Whole.mem_uc Cert.KernelIdeal.main_v20 (by decide))
    · exact (h c _ (Cert.KernelIdeal.Whole.mem_uc Cert.KernelIdeal.main_arg0 (by decide))).trans (Cert.KernelIdeal.Whole.W5_main_arg0 m ρ c)
    · exact (h c _ (Cert.KernelIdeal.Whole.mem_uc Cert.KernelIdeal.main_arg1 (by decide))).trans (Cert.KernelIdeal.Whole.W5_main_arg1 m ρ c)
    · exact (h c _ (Cert.KernelIdeal.Whole.mem_uc Cert.KernelIdeal.main_arg2 (by decide))).trans (Cert.KernelIdeal.Whole.W5_main_arg2 m ρ c)
    · exact (h c _ (Cert.KernelIdeal.Whole.mem_uc Cert.KernelIdeal.main_arg3 (by decide))).trans (Cert.KernelIdeal.Whole.W5_main_arg3 m ρ c)
    · exact (h c _ (Cert.KernelIdeal.Whole.mem_uc Cert.KernelIdeal.main_arg4 (by decide))).trans (Cert.KernelIdeal.Whole.W5_main_arg4 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq, (hagree c).1, (hagree c).2.1, (hagree c).2.2.1, (hagree c).2.2.2.1,
      (hagree c).2.2.2.2]
    exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
